-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x1 .f32) (main_arg9 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x64 .f32) (main_arg3 : FVec F S64 .f32) (main_arg4 : FVec F S64x32 .f32) (main_arg5 : FVec F S32 .f32) (main_arg6 : FVec F S32x16 .f32) (main_arg7 : FVec F S16 .f32) (main_arg8 : FVec F S16x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4000x256 : Shape := ⟨2, ![4000, 256]⟩
abbrev S4000x1 : Shape := ⟨2, ![4000, 1]⟩
abbrev S4000x64 : Shape := ⟨2, ![4000, 64]⟩
abbrev S1700000x64 : Shape := ⟨2, ![1700000, 64]⟩
abbrev S1x64 : Shape := ⟨2, ![1, 64]⟩
abbrev S100000x32 : Shape := ⟨2, ![100000, 32]⟩
abbrev S4000x32 : Shape := ⟨2, ![4000, 32]⟩
abbrev S1700000x32 : Shape := ⟨2, ![1700000, 32]⟩
abbrev S1x32 : Shape := ⟨2, ![1, 32]⟩
abbrev S1x16 : Shape := ⟨2, ![1, 16]⟩
abbrev S1x1 : Shape := ⟨2, ![1, 1]⟩
abbrev S4000x16 : Shape := ⟨2, ![4000, 16]⟩

abbrev nBuf : Space → Nat
  | .hbm => 92
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .i32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .i32⟩
  | .hbm, ⟨56, _⟩ => ⟨S100000x64, .bf16⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .bf16⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x32, .bf16⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .bf16⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S1x32, .f32⟩
  | .hbm, ⟨88, _⟩ => ⟨S1x16, .f32⟩
  | .hbm, ⟨89, _⟩ => ⟨S1x1, .f32⟩
  | .hbm, ⟨90, _⟩ => ⟨S100000x1, .f32⟩
  | .hbm, ⟨91, _⟩ => ⟨S100000, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x32, .f32⟩
  | .local _ .vmem, ⟨13, _⟩ => ⟨S4000x32, .bf16⟩
  | .local _ .vmem, ⟨14, _⟩ => ⟨S4000x32, .bf16⟩
  | .local _ .vmem, ⟨15, _⟩ => ⟨S4000x32, .f32⟩
  | .local _ .vmem, ⟨16, _⟩ => ⟨S4000x32, .f32⟩
  | .local _ .vmem, ⟨17, _⟩ => ⟨S4000x1, .f32⟩
  | .local _ .vmem, ⟨18, _⟩ => ⟨S4000x1, .f32⟩
  | .local _ .vmem, ⟨19, _⟩ => ⟨S1x32, .f32⟩
  | .local _ .vmem, ⟨20, _⟩ => ⟨S32x16, .f32⟩
  | .local _ .vmem, ⟨21, _⟩ => ⟨S1x16, .f32⟩
  | .local _ .vmem, ⟨22, _⟩ => ⟨S16x1, .f32⟩
  | .local _ .vmem, ⟨23, _⟩ => ⟨S1x1, .f32⟩
  | .local _ .vmem, ⟨24, _⟩ => ⟨S4000x1, .f32⟩
  | .local _ .vmem, ⟨25, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1_0 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S32_S1x32 : S32.ShapeCasts S1x32
  shapeCasts_S16_S1x16 : S16.ShapeCasts S1x16
  shapeCasts_S1_S1x1 : S1.ShapeCasts S1x1
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  scatter_S100000_S1700000x1_S1700000_n_0_0_1_wf : ScatterDims.WF S100000 S1700000x1 S1700000 [] [0] [0] 1
  gather_S1700000_S1700000x1_S1700000_n_0_n_n_0_1_1_wf : GatherDims.WF S1700000 S1700000x1 S1700000 [] [0] [] [0] [] 1 ![1]
  dot_S4000x256_S256x64_S4000x64_1_0_0_1_n_n_wf : DotDims.WF S4000x256 S256x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x32_S4000x32_1_0_0_1_n_n_wf : DotDims.WF S4000x64 S64x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x16_S4000x16_1_0_0_1_n_n_wf : DotDims.WF S4000x32 S32x16 S4000x16 [1] [0] [0] [1] [] []
  dot_S4000x16_S16x1_S4000x1_1_0_0_1_n_n_wf : DotDims.WF S4000x16 S16x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .bf16 = 32 ∨ (Rect.block (s := S100000x32) S4000x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x1.size a ≤ S16x1.size a
  hwx2_5 : ∀ i : grid2.Coords, EltTy.bits .f32 = 32 ∨ (Rect.block (s := S16x1) S16x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S100000x1.size a
  hwx2_7 : ∀ i : grid2.Coords, EltTy.bits .f32 = 32 ∨ (Rect.block (s := S100000x1) S4000x1.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def comparator_i32_i32_d0 : BitVec 32 × BitVec 32 → BitVec 32 × BitVec 32 → BitVec 1 :=
  fun l r =>
    let v2 := IntOp.cmpi .slt l.1 r.1
    v2
def gather_S1700000_S1700000x1_S1700000_n_0_n_n_0_1_1 : GatherDims S1700000 S1700000x1 S1700000 where
  offsetDims := []
  collapsedSliceDims := [0]
  operandBatchingDims := []
  startIndicesBatchingDims := []
  startIndexMap := [0]
  indexVectorDim := 1
  sliceSizes := ![1]
  wf := gather_S1700000_S1700000x1_S1700000_n_0_n_n_0_1_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S16x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x32, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x32, .f32⟩
  | .hbm, ⟨86, _⟩ => ⟨S1700000x1, .f32⟩
  | .hbm, ⟨87, _⟩ => ⟨S1700000x32, .f32⟩
  | .hbm, ⟨88, _⟩ => ⟨S1700000x32, .f32⟩
  | .hbm, ⟨89, _⟩ => ⟨S_, .f32⟩
  | .hbm, ⟨90, _⟩ => ⟨S100000x32, .f32⟩
  | .hbm, ⟨91, _⟩ => ⟨S1700000x1, .i32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S100000x32, .f32⟩
  | .hbm, ⟨96, _⟩ => ⟨S_, .f32⟩
  | .hbm, ⟨97, _⟩ => ⟨S100000x32, .f32⟩
  | .hbm, ⟨98, _⟩ => ⟨S100000x32, .f32⟩
  | .hbm, ⟨99, _⟩ => ⟨S100000x16, .f32⟩
  | .hbm, ⟨100, _⟩ => ⟨S1x16, .f32⟩
  | .hbm, ⟨101, _⟩ => ⟨S100000x16, .f32⟩
  | .hbm, ⟨102, _⟩ => ⟨S100000x16, .f32⟩
  | .hbm, ⟨103, _⟩ => ⟨S_, .f32⟩
  | .hbm, ⟨104, _⟩ => ⟨S100000x16, .f32⟩
  | .hbm, ⟨105, _⟩ => ⟨S100000x16, .f32⟩
  | .hbm, ⟨106, _⟩ => ⟨S100000x1, .f32⟩
  | .hbm, ⟨107, _⟩ => ⟨S1x1, .f32⟩
  | .hbm, ⟨108, _⟩ => ⟨S100000x1, .f32⟩
  | .hbm, ⟨109, _⟩ => ⟨S100000x1, .f32⟩
  | .hbm, ⟨110, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call3_cst : Ref sig .tc := ⟨.hbm, 103, rfl⟩
abbrev main_call3_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel program's run with its result named. The program is three pallas regions among stretches of
  host operations; its buffer contents at each boundary are a fold through @main (`Gen.W0` … `Gen.W11`). Every weakly
  fair execution terminates, nothing faulting, with the result buffer at the last boundary's contents and the argument
  arrays as launched.
-/
import proofs.«145530_j23407571763485_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- At the compiled mesh, from any memory with zero counters, every weakly fair execution of @main terminates, nothing
    faulting, and in every final state the result buffer holds the last boundary's contents `W11` at it and the
    argument arrays are as launched: the launch over the segments, the last thread state read against the final state. -/
theorem run_main : θ_run defs (onTc (τ := τ) (main (F := F))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v62 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.KRun

end
-- ==== Proof.KernelCarry.lean ====
/-
  The kernel program's buffers across its boundaries. Every buffer is written once; a later boundary's contents at a
  buffer are the contents at the boundary right after it was written: a host stretch leaves what it does not write, and
  a region leaves every buffer that is not one of its arrays and every input array as it found them.
-/
import proofs.«145530_j23407571763485_2_alg».proof.Proof.Gen.KernelIdeal.Frame
import Idealize.ShloMosaic.PureOps.Ideal
import Idealize.ShloMosaic.Lib.ValueIdx

set_option maxRecDepth 16384

noncomputable section

namespace Cert.KSide

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

/-! ## Across the first region -/

theorem w6_main_v17 : W6 (F := Ideal) m ρ c (Proc.devRef .tc main_v17) = W5 (F := Ideal) m ρ c (Proc.devRef .tc main_v17) :=
  (W6_arr m ρ c 2).trans (((dat0 (V5 m ρ) c).arrAt_in 2 rfl _).trans (A_eq0 (V5 m ρ) c 2))
theorem w6_main_v25 : W6 (F := Ideal) m ρ c (Proc.devRef .tc main_v25) = W5 (F := Ideal) m ρ c (Proc.devRef .tc main_v25) := W6_of_ne m ρ c main_v25 (by decide)
theorem w6_main_v32 : W6 (F := Ideal) m ρ c (Proc.devRef .tc main_v32) = W5 (F := Ideal) m ρ c (Proc.devRef .tc main_v32) := W6_of_ne m ρ c main_v32 (by decide)
theorem w6_main_arg3 : W6 (F := Ideal) m ρ c (Proc.devRef .tc main_arg3) = W5 (F := Ideal) m ρ c (Proc.devRef .tc main_arg3) := W6_of_ne m ρ c main_arg3 (by decide)
theorem w6_main_arg4 : W6 (F := Ideal) m ρ c (Proc.devRef .tc main_arg4) = W5 (F := Ideal) m ρ c (Proc.devRef .tc main_arg4) := W6_of_ne m ρ c main_arg4 (by decide)
theorem w6_main_arg5 : W6 (F := Ideal) m ρ c (Proc.devRef .tc main_arg5) = W5 (F := Ideal) m ρ c (Proc.devRef .tc main_arg5) := W6_of_ne m ρ c main_arg5 (by decide)
theorem w6_main_arg6 : W6 (F := Ideal) m ρ c (Proc.devRef .tc main_arg6) = W5 (F := Ideal) m ρ c (Proc.devRef .tc main_arg6) := W6_of_ne m ρ c main_arg6 (by decide)
theorem w6_main_arg7 : W6 (F := Ideal) m ρ c (Proc.devRef .tc main_arg7) = W5 (F := Ideal) m ρ c (Proc.devRef .tc main_arg7) := W6_of_ne m ρ c main_arg7 (by decide)
theorem w6_main_arg8 : W6 (F := Ideal) m ρ c (Proc.devRef .tc main_arg8) = W5 (F := Ideal) m ρ c (Proc.devRef .tc main_arg8) := W6_of_ne m ρ c main_arg8 (by decide)
theorem w6_main_arg9 : W6 (F := Ideal) m ρ c (Proc.devRef .tc main_arg9) = W5 (F := Ideal) m ρ c (Proc.devRef .tc main_arg9) := W6_of_ne m ρ c main_arg9 (by decide)

/-! ## Across the host stretch between the first and the second region -/

set_option maxHeartbeats 4000000 in
theorem w7_main_v17 : W7 (F := Ideal) m ρ c (Proc.devRef .tc main_v17) = W6 (F := Ideal) m ρ c (Proc.devRef .tc main_v17) := by
  dsimp only [W7]; after_results_simp
set_option maxHeartbeats 4000000 in
theorem w7_main_v25 : W7 (F := Ideal) m ρ c (Proc.devRef .tc main_v25) = W6 (F := Ideal) m ρ c (Proc.devRef .tc main_v25) := by
  dsimp only [W7]; after_results_simp
set_option maxHeartbeats 4000000 in
theorem w7_main_v32 : W7 (F := Ideal) m ρ c (Proc.devRef .tc main_v32) = W6 (F := Ideal) m ρ c (Proc.devRef .tc main_v32) := by
  dsimp only [W7]; after_results_simp
set_option maxHeartbeats 4000000 in
theorem w7_main_arg4 : W7 (F := Ideal) m ρ c (Proc.devRef .tc main_arg4) = W6 (F := Ideal) m ρ c (Proc.devRef .tc main_arg4) := by
  dsimp only [W7]; after_results_simp
set_option maxHeartbeats 4000000 in
theorem w7_main_arg5 : W7 (F := Ideal) m ρ c (Proc.devRef .tc main_arg5) = W6 (F := Ideal) m ρ c (Proc.devRef .tc main_arg5) := by
  dsimp only [W7]; after_results_simp
set_option maxHeartbeats 4000000 in
theorem w7_main_arg6 : W7 (F := Ideal) m ρ c (Proc.devRef .tc main_arg6) = W6 (F := Ideal) m ρ c (Proc.devRef .tc main_arg6) := by
  dsimp only [W7]; after_results_simp
set_option maxHeartbeats 4000000 in
theorem w7_main_arg7 : W7 (F := Ideal) m ρ c (Proc.devRef .tc main_arg7) = W6 (F := Ideal) m ρ c (Proc.devRef .tc main_arg7) := by
  dsimp only [W7]; after_results_simp
set_option maxHeartbeats 4000000 in
theorem w7_main_arg8 : W7 (F := Ideal) m ρ c (Proc.devRef .tc main_arg8) = W6 (F := Ideal) m ρ c (Proc.devRef .tc main_arg8) := by
  dsimp only [W7]; after_results_simp
set_option maxHeartbeats 4000000 in
theorem w7_main_arg9 : W7 (F := Ideal) m ρ c (Proc.devRef .tc main_arg9) = W6 (F := Ideal) m ρ c (Proc.devRef .tc main_arg9) := by
  dsimp only [W7]; after_results_simp

/-! ## Across the second region -/

theorem w8_main_v17 : W8 (F := Ideal) m ρ c (Proc.devRef .tc main_v17) = W7 (F := Ideal) m ρ c (Proc.devRef .tc main_v17) :=
  (W8_arr m ρ c 1).trans (((dat1 (V7 m ρ) c).arrAt_in 1 rfl _).trans (A_eq1 (V7 m ρ) c 1))
theorem w8_main_v25 : W8 (F := Ideal) m ρ c (Proc.devRef .tc main_v25) = W7 (F := Ideal) m ρ c (Proc.devRef .tc main_v25) := W8_of_ne m ρ c main_v25 (by decide)
theorem w8_main_v32 : W8 (F := Ideal) m ρ c (Proc.devRef .tc main_v32) = W7 (F := Ideal) m ρ c (Proc.devRef .tc main_v32) := W8_of_ne m ρ c main_v32 (by decide)
theorem w8_main_arg5 : W8 (F := Ideal) m ρ c (Proc.devRef .tc main_arg5) = W7 (F := Ideal) m ρ c (Proc.devRef .tc main_arg5) := W8_of_ne m ρ c main_arg5 (by decide)
theorem w8_main_arg6 : W8 (F := Ideal) m ρ c (Proc.devRef .tc main_arg6) = W7 (F := Ideal) m ρ c (Proc.devRef .tc main_arg6) := W8_of_ne m ρ c main_arg6 (by decide)
theorem w8_main_arg7 : W8 (F := Ideal) m ρ c (Proc.devRef .tc main_arg7) = W7 (F := Ideal) m ρ c (Proc.devRef .tc main_arg7) := W8_of_ne m ρ c main_arg7 (by decide)
theorem w8_main_arg8 : W8 (F := Ideal) m ρ c (Proc.devRef .tc main_arg8) = W7 (F := Ideal) m ρ c (Proc.devRef .tc main_arg8) := W8_of_ne m ρ c main_arg8 (by decide)
theorem w8_main_arg9 : W8 (F := Ideal) m ρ c (Proc.devRef .tc main_arg9) = W7 (F := Ideal) m ρ c (Proc.devRef .tc main_arg9) := W8_of_ne m ρ c main_arg9 (by decide)

/-! ## Across the host stretch between the second and the third region -/

set_option maxHeartbeats 4000000 in
theorem w9_main_v17 : W9 (F := Ideal) m ρ c (Proc.devRef .tc main_v17) = W8 (F := Ideal) m ρ c (Proc.devRef .tc main_v17) := by
  dsimp only [W9]; after_results_simp
set_option maxHeartbeats 4000000 in
theorem w9_main_arg6 : W9 (F := Ideal) m ρ c (Proc.devRef .tc main_arg6) = W8 (F := Ideal) m ρ c (Proc.devRef .tc main_arg6) := by
  dsimp only [W9]; after_results_simp
set_option maxHeartbeats 4000000 in
theorem w9_main_arg8 : W9 (F := Ideal) m ρ c (Proc.devRef .tc main_arg8) = W8 (F := Ideal) m ρ c (Proc.devRef .tc main_arg8) := by
  dsimp only [W9]; after_results_simp

/-! ## The arguments at the first region's entry are the launch contents -/

set_option maxHeartbeats 4000000 in
theorem w5_main_arg0 : W5 (F := Ideal) m ρ c (Proc.devRef .tc main_arg0) = m ((c : Thread nD τ).loc main_arg0) := by
  dsimp only [W5, W4, W3, W2, W1]; after_results_simp
set_option maxHeartbeats 4000000 in
theorem w5_main_arg2 : W5 (F := Ideal) m ρ c (Proc.devRef .tc main_arg2) = m ((c : Thread nD τ).loc main_arg2) := by
  dsimp only [W5, W4, W3, W2, W1]; after_results_simp
set_option maxHeartbeats 4000000 in
theorem w5_main_arg3 : W5 (F := Ideal) m ρ c (Proc.devRef .tc main_arg3) = m ((c : Thread nD τ).loc main_arg3) := by
  dsimp only [W5, W4, W3, W2, W1]; after_results_simp
set_option maxHeartbeats 4000000 in
theorem w5_main_arg4 : W5 (F := Ideal) m ρ c (Proc.devRef .tc main_arg4) = m ((c : Thread nD τ).loc main_arg4) := by
  dsimp only [W5, W4, W3, W2, W1]; after_results_simp
set_option maxHeartbeats 4000000 in
theorem w5_main_arg5 : W5 (F := Ideal) m ρ c (Proc.devRef .tc main_arg5) = m ((c : Thread nD τ).loc main_arg5) := by
  dsimp only [W5, W4, W3, W2, W1]; after_results_simp
set_option maxHeartbeats 4000000 in
theorem w5_main_arg6 : W5 (F := Ideal) m ρ c (Proc.devRef .tc main_arg6) = m ((c : Thread nD τ).loc main_arg6) := by
  dsimp only [W5, W4, W3, W2, W1]; after_results_simp
set_option maxHeartbeats 4000000 in
theorem w5_main_arg7 : W5 (F := Ideal) m ρ c (Proc.devRef .tc main_arg7) = m ((c : Thread nD τ).loc main_arg7) := by
  dsimp only [W5, W4, W3, W2, W1]; after_results_simp
set_option maxHeartbeats 4000000 in
theorem w5_main_arg8 : W5 (F := Ideal) m ρ c (Proc.devRef .tc main_arg8) = m ((c : Thread nD τ).loc main_arg8) := by
  dsimp only [W5, W4, W3, W2, W1]; after_results_simp
set_option maxHeartbeats 4000000 in
theorem w5_main_arg9 : W5 (F := Ideal) m ρ c (Proc.devRef .tc main_arg9) = m ((c : Thread nD τ).loc main_arg9) := by
  dsimp only [W5, W4, W3, W2, W1]; after_results_simp

end Cert.KSide

end
-- ==== Proof.KernelStageTerms.lean ====
/-
  The kernel program's host stages, as the printed operations applied to the contents at the boundary before them:
  the sorted edge lists, the normalisation column, the two aggregations, the bias rows and the final reshape.
-/
import proofs.«145530_j23407571763485_2_alg».proof.Proof.Gen.KernelIdeal.Frame
import Idealize.ShloMosaic.PureOps.Ideal
import Idealize.ShloMosaic.Lib.ValueIdx

set_option maxRecDepth 16384

noncomputable section

namespace Cert.KSide

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

/-! ## Before the first region -/

set_option maxHeartbeats 4000000 in
/-- The normalisation column is the normalisation vector reshaped. -/
theorem t5_main_v17 : W5 (F := Ideal) m ρ c (Proc.devRef .tc main_v17) = shapeCast S100000x1 (W5 (F := Ideal) m ρ c (Proc.devRef .tc main_v16)) shapeCasts_S100000_S100000x1 := by
  dsimp only [W5, W4, W3, W2, W1]; after_results_simp; rfl

set_option maxHeartbeats 4000000 in
/-- The sources in sorted order: the source list gathered at the sorting order of the targets. -/
theorem t5_main_v25 : W5 (F := Ideal) m ρ c (Proc.devRef .tc main_v25) = Host.gather gather_S1700000_S1700000x1_S1700000_n_0_n_n_0_1_1 (W5 (F := Ideal) m ρ c (Proc.devRef .tc main_v3)) (broadcastInDim S1700000x1 ![0] bcast_S1700000_S1700000x1_0 (select (cmpi .slt (Host.sort2 S1700000 0 comparator_i32_i32_d0 (W5 (F := Ideal) m ρ c (Proc.devRef .tc main_v6)) (iotaInDim S1700000 32 0)).2 (broadcastInDim S1700000 ![] bcast_S_S1700000 (constantI S_ 32 0#32))) (addi (Host.sort2 S1700000 0 comparator_i32_i32_d0 (W5 (F := Ideal) m ρ c (Proc.devRef .tc main_v6)) (iotaInDim S1700000 32 0)).2 (broadcastInDim S1700000 ![] bcast_S_S1700000 (constantI S_ 32 1700000#32))) (Host.sort2 S1700000 0 comparator_i32_i32_d0 (W5 (F := Ideal) m ρ c (Proc.devRef .tc main_v6)) (iotaInDim S1700000 32 0)).2)) := by
  dsimp only [W5, W4, W3, W2, W1]; after_results_simp; rfl

set_option maxHeartbeats 4000000 in
/-- The targets in sorted order. -/
theorem t5_main_v32 : W5 (F := Ideal) m ρ c (Proc.devRef .tc main_v32) = Host.gather gather_S1700000_S1700000x1_S1700000_n_0_n_n_0_1_1 (W5 (F := Ideal) m ρ c (Proc.devRef .tc main_v6)) (broadcastInDim S1700000x1 ![0] bcast_S1700000_S1700000x1_0 (select (cmpi .slt (Host.sort2 S1700000 0 comparator_i32_i32_d0 (W5 (F := Ideal) m ρ c (Proc.devRef .tc main_v6)) (iotaInDim S1700000 32 0)).2 (broadcastInDim S1700000 ![] bcast_S_S1700000 (constantI S_ 32 0#32))) (addi (Host.sort2 S1700000 0 comparator_i32_i32_d0 (W5 (F := Ideal) m ρ c (Proc.devRef .tc main_v6)) (iotaInDim S1700000 32 0)).2 (broadcastInDim S1700000 ![] bcast_S_S1700000 (constantI S_ 32 1700000#32))) (Host.sort2 S1700000 0 comparator_i32_i32_d0 (W5 (F := Ideal) m ρ c (Proc.devRef .tc main_v6)) (iotaInDim S1700000 32 0)).2)) := by
  dsimp only [W5, W4, W3, W2, W1]; after_results_simp; rfl

/-! ## Between the first and the second region -/

set_option maxHeartbeats 4000000 in
/-- The first aggregation: the first region's rows gathered at the sorted sources and added up at the sorted targets. -/
theorem t7_main_v44 : W7 (F := Ideal) m ρ c (Proc.devRef .tc main_v44) = Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 (W6 (F := Ideal) m ρ c (Proc.devRef .tc main_v32))) (extf (F := Ideal) .f32 (Host.gather gather_S100000x64_S1700000x1_S1700000x64_1_0_n_n_0_1_164 (W6 (F := Ideal) m ρ c (Proc.devRef .tc main_v33)) (broadcastInDim S1700000x1 ![0] bcast_S1700000_S1700000x1_0 (select (cmpi .slt (W6 (F := Ideal) m ρ c (Proc.devRef .tc main_v25)) (broadcastInDim S1700000 ![] bcast_S_S1700000 (constantI S_ 32 0#32))) (addi (W6 (F := Ideal) m ρ c (Proc.devRef .tc main_v25)) (broadcastInDim S1700000 ![] bcast_S_S1700000 (constantI S_ 32 100000#32))) (W6 (F := Ideal) m ρ c (Proc.devRef .tc main_v25))))) bitsLt_bf16_f32) := by
  dsimp only [W7]; after_results_simp

set_option maxHeartbeats 4000000 in
/-- The first bias as a row. -/
theorem t7_main_v45 : W7 (F := Ideal) m ρ c (Proc.devRef .tc main_v45) = shapeCast S1x64 (W6 (F := Ideal) m ρ c (Proc.devRef .tc main_arg3)) shapeCasts_S64_S1x64 := by
  dsimp only [W7]; after_results_simp; rfl

/-! ## Between the second and the third region -/

set_option maxHeartbeats 4000000 in
/-- The second aggregation. -/
theorem t9_main_v57 : W9 (F := Ideal) m ρ c (Proc.devRef .tc main_v57) = Host.scatterAdd (F := Ideal) scatter_S100000x32_S1700000x1_S1700000x32_1_0_0_1 (broadcastInDim S100000x32 ![] bcast_S_S100000x32 (constant (F := Ideal) S_ .f32 0x00000000#32)) (broadcastInDim S1700000x1 ![0] bcast_S1700000_S1700000x1_0 (W8 (F := Ideal) m ρ c (Proc.devRef .tc main_v32))) (extf (F := Ideal) .f32 (Host.gather gather_S100000x32_S1700000x1_S1700000x32_1_0_n_n_0_1_132 (W8 (F := Ideal) m ρ c (Proc.devRef .tc main_v46)) (broadcastInDim S1700000x1 ![0] bcast_S1700000_S1700000x1_0 (select (cmpi .slt (W8 (F := Ideal) m ρ c (Proc.devRef .tc main_v25)) (broadcastInDim S1700000 ![] bcast_S_S1700000 (constantI S_ 32 0#32))) (addi (W8 (F := Ideal) m ρ c (Proc.devRef .tc main_v25)) (broadcastInDim S1700000 ![] bcast_S_S1700000 (constantI S_ 32 100000#32))) (W8 (F := Ideal) m ρ c (Proc.devRef .tc main_v25))))) bitsLt_bf16_f32) := by
  dsimp only [W9]; after_results_simp

set_option maxHeartbeats 4000000 in
theorem t9_main_v58 : W9 (F := Ideal) m ρ c (Proc.devRef .tc main_v58) = shapeCast S1x32 (W8 (F := Ideal) m ρ c (Proc.devRef .tc main_arg5)) shapeCasts_S32_S1x32 := by
  dsimp only [W9]; after_results_simp; rfl

set_option maxHeartbeats 4000000 in
theorem t9_main_v59 : W9 (F := Ideal) m ρ c (Proc.devRef .tc main_v59) = shapeCast S1x16 (W8 (F := Ideal) m ρ c (Proc.devRef .tc main_arg7)) shapeCasts_S16_S1x16 := by
  dsimp only [W9]; after_results_simp; rfl

set_option maxHeartbeats 4000000 in
theorem t9_main_v60 : W9 (F := Ideal) m ρ c (Proc.devRef .tc main_v60) = shapeCast S1x1 (W8 (F := Ideal) m ρ c (Proc.devRef .tc main_arg9)) shapeCasts_S1_S1x1 := by
  dsimp only [W9]; after_results_simp; rfl

/-! ## After the third region -/

set_option maxHeartbeats 4000000 in
/-- The result is the third region's column reshaped to a vector. -/
theorem t11_main_v62 : W11 (F := Ideal) m ρ c (Proc.devRef .tc main_v62) = shapeCast S100000 (W10 (F := Ideal) m ρ c (Proc.devRef .tc main_v61)) shapeCasts_S100000x1_S100000 := by
  dsimp only [W11]; after_results_simp; rfl

end Cert.KSide

end
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.KernelIndex.lean ====
/-
  The kernel program's small arrays read at an index: the normalisation column, the bias rows, the weight matrices and
  the final reshape, each traced back to the launch contents or to the normalisation vector.
-/
import proofs.«145530_j23407571763485_2_alg».proof.Proof.KernelCarry
import proofs.«145530_j23407571763485_2_alg».proof.Proof.KernelStageTerms
import proofs.«145530_j23407571763485_2_alg».proof.Proof.LibColumnCast
import Idealize.ShloMosaic.Lib.ValueLayout
import Idealize.ShloMosaic.Lib.Pipeline.Value

set_option maxRecDepth 16384

noncomputable section

namespace Cert.KSide

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The normalisation column at the three regions' entries -/

theorem dcol5 (r : Fin 100000) :
    (W5 (F := Ideal) m ρ c (Proc.devRef .tc main_v17) : S100000x1.Idx → EReal) (ix2 r (0 : Fin 1)) = (W5 (F := Ideal) m ρ c (Proc.devRef .tc main_v16) : S100000.Idx → EReal) (ix1 r) := by
  rw [t5_main_v17 m ρ c]
  exact Cert.Lib.shapeCast_a_a1_apply _ _ r 0

theorem dcol7 (r : Fin 100000) :
    (W7 (F := Ideal) m ρ c (Proc.devRef .tc main_v17) : S100000x1.Idx → EReal) (ix2 r (0 : Fin 1)) = (W5 (F := Ideal) m ρ c (Proc.devRef .tc main_v16) : S100000.Idx → EReal) (ix1 r) := by
  rw [w7_main_v17 m ρ c, w6_main_v17 m ρ c]
  exact dcol5 m ρ c r

theorem dcol9 (r : Fin 100000) :
    (W9 (F := Ideal) m ρ c (Proc.devRef .tc main_v17) : S100000x1.Idx → EReal) (ix2 r (0 : Fin 1)) = (W5 (F := Ideal) m ρ c (Proc.devRef .tc main_v16) : S100000.Idx → EReal) (ix1 r) := by
  rw [w9_main_v17 m ρ c, w8_main_v17 m ρ c]
  exact dcol7 m ρ c r

/-! ## The bias rows -/

theorem brow7 (k : Fin 64) :
    (W7 (F := Ideal) m ρ c (Proc.devRef .tc main_v45) : S1x64.Idx → EReal) (ix2 (0 : Fin 1) k) = (m ((c : Thread nD τ).loc main_arg3) : S64.Idx → EReal) (ix1 k) := by
  rw [t7_main_v45 m ρ c, w6_main_arg3 m ρ c, w5_main_arg3 m ρ c]
  exact shapeCast_a_1a_apply _ _ 0 k

theorem brow9_58 (k : Fin 32) :
    (W9 (F := Ideal) m ρ c (Proc.devRef .tc main_v58) : S1x32.Idx → EReal) (ix2 (0 : Fin 1) k) = (m ((c : Thread nD τ).loc main_arg5) : S32.Idx → EReal) (ix1 k) := by
  rw [t9_main_v58 m ρ c, w8_main_arg5 m ρ c, w7_main_arg5 m ρ c, w6_main_arg5 m ρ c, w5_main_arg5 m ρ c]
  exact shapeCast_a_1a_apply _ _ 0 k

theorem brow9_59 (j : Fin 16) :
    (W9 (F := Ideal) m ρ c (Proc.devRef .tc main_v59) : S1x16.Idx → EReal) (ix2 (0 : Fin 1) j) = (m ((c : Thread nD τ).loc main_arg7) : S16.Idx → EReal) (ix1 j) := by
  rw [t9_main_v59 m ρ c, w8_main_arg7 m ρ c, w7_main_arg7 m ρ c, w6_main_arg7 m ρ c, w5_main_arg7 m ρ c]
  exact shapeCast_a_1a_apply _ _ 0 j

theorem brow9_60 :
    (W9 (F := Ideal) m ρ c (Proc.devRef .tc main_v60) : S1x1.Idx → EReal) (ix2 (0 : Fin 1) (0 : Fin 1)) = (m ((c : Thread nD τ).loc main_arg9) : S1.Idx → EReal) (ix1 (0 : Fin 1)) := by
  rw [t9_main_v60 m ρ c, w8_main_arg9 m ρ c, w7_main_arg9 m ρ c, w6_main_arg9 m ρ c, w5_main_arg9 m ρ c]
  exact shapeCast_a_1a_apply _ _ 0 0

/-! ## The weight matrices at the regions' entries are the launch contents -/

theorem wmat7 : W7 (F := Ideal) m ρ c (Proc.devRef .tc main_arg4) = m ((c : Thread nD τ).loc main_arg4) := by
  rw [w7_main_arg4 m ρ c, w6_main_arg4 m ρ c, w5_main_arg4 m ρ c]

theorem wmat9_6 : W9 (F := Ideal) m ρ c (Proc.devRef .tc main_arg6) = m ((c : Thread nD τ).loc main_arg6) := by
  rw [w9_main_arg6 m ρ c, w8_main_arg6 m ρ c, w7_main_arg6 m ρ c, w6_main_arg6 m ρ c, w5_main_arg6 m ρ c]

theorem wmat9_8 : W9 (F := Ideal) m ρ c (Proc.devRef .tc main_arg8) = m ((c : Thread nD τ).loc main_arg8) := by
  rw [w9_main_arg8 m ρ c, w8_main_arg8 m ρ c, w7_main_arg8 m ρ c, w6_main_arg8 m ρ c, w5_main_arg8 m ρ c]

/-! ## The sorted edge lists do not change after the first region's entry -/

theorem srcS6 : W6 (F := Ideal) m ρ c (Proc.devRef .tc main_v25) = W5 (F := Ideal) m ρ c (Proc.devRef .tc main_v25) := w6_main_v25 m ρ c
theorem dstS6 : W6 (F := Ideal) m ρ c (Proc.devRef .tc main_v32) = W5 (F := Ideal) m ρ c (Proc.devRef .tc main_v32) := w6_main_v32 m ρ c
theorem srcS8 : W8 (F := Ideal) m ρ c (Proc.devRef .tc main_v25) = W5 (F := Ideal) m ρ c (Proc.devRef .tc main_v25) := by
  rw [w8_main_v25 m ρ c, w7_main_v25 m ρ c, w6_main_v25 m ρ c]
theorem dstS8 : W8 (F := Ideal) m ρ c (Proc.devRef .tc main_v32) = W5 (F := Ideal) m ρ c (Proc.devRef .tc main_v32) := by
  rw [w8_main_v32 m ρ c, w7_main_v32 m ρ c, w6_main_v32 m ρ c]

/-! ## The result vector -/

theorem out_apply (p : Fin 100000) :
    (W11 (F := Ideal) m ρ c (Proc.devRef .tc main_v62) : S100000.Idx → EReal) (ix1 p) = (W10 (F := Ideal) m ρ c (Proc.devRef .tc main_v61) : S100000x1.Idx → EReal) (ix2 p (0 : Fin 1)) := by
  rw [t11_main_v62 m ρ c]
  exact shapeCast_a1_a_apply _ _ p

end Cert.KSide

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.LibVecGather.lean ====
/-
  GATHER OF A VECTOR, READ AT AN INDEX. StableHLO's `gather` with ONE index column over a 1-d operand — the lowering
  of `x[idx]` for a 1-d array `x : [N]` at an integer vector `idx` presented as an `[E, 1]` array, with a result
  `[E]` — stated generically in the extents and the element type: a gathered element is the operand's at the index
  read signed and CLAMPED into `[0, N - 1]` (`vecGather_apply`).
-/
import Idealize.ShloMosaic.Lib.ValueIdx
import Idealize.ShloMosaic.PureOps.Contract
import proofs.«145530_j23407571763485_2_alg».proof.Proof.LibRowOps

noncomputable section

open Idealize.ShloMosaic Idealize.ShloMosaic.ValueIdx

namespace Cert.Lib

section VecGather
variable {α : Type}

/-- The dimension numbers of `x[idx]`: an operand `[N]`, start indices `[E, 1]` (one index per result element), a
    result `[E]`; the operand's one axis is collapsed, there is no offset axis, slices have one element. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the index `idx[e, 0]`, read signed and clamped into
    `[0, N - 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«145530_j23407571763485_2_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.SpecWords.lean ====
/-
  Index words. A row index arrives as a 32-bit word. Python-style indexing first adds the extent to a negative
  word (`nrmWord`), then a gather clamps the signed value into the array and a scatter drops an update whose signed
  value is outside it.
-/
import Idealize.ShloMosaic.PureOps.Vector

noncomputable section

open Idealize.ShloMosaic

namespace Cert.Spec

/-- The word `w` with the extent `n` added when `w`, read signed, is negative: one element of
    `select (cmpi slt v 0) (addi v n) v`. -/
def nrmWord (n w : BitVec 32) : BitVec 32 :=
  Scalar.select (IntOp.cmpi .slt w 0#32) (IntOp.addi w n) w

end Cert.Spec

end
-- ==== Proof.IndexFacts.lean ====
/-
  Facts about index words.

  A row index arrives as a 32-bit word. A word that is not negative when read as a signed integer is left alone by
  the normalisation `nrmWord` (which adds the extent to a negative word); when it names a row of the array, the clamped row a gather reads is that
  row. A natural number below `2 ^ 31`, written as a word, reads back as itself.
-/
import proofs.«145530_j23407571763485_2_alg».proof.Proof.SpecWords
import proofs.«145530_j23407571763485_2_alg».proof.Proof.LibRowOps

open Idealize.ShloMosaic
open Cert.Lib

namespace Cert.Spec

/-- A word that is not negative when read signed is left alone. -/
theorem nrmWord_of_nonneg (n w : BitVec 32) (h : 0 ≤ w.toInt) : nrmWord n w = w := by
  have hs : w.slt 0#32 = false := by
    simp only [BitVec.slt, BitVec.toInt_zero, decide_eq_false_iff_not, not_lt]
    exact h
  unfold nrmWord Scalar.select IntOp.cmpi
  simp [hs]

/-- A word naming a row of the array: normalised and then clamped, it is that row. -/
theorem clampRow_nrmWord_of_row? {N : Nat} (hN : 0 < N) (n w : BitVec 32) (p : Fin N)
    (h : row? N w = some p) : clampRow N hN (nrmWord n w) = p := by
  have hw : w.toInt = (p.val : Int) := (row?_eq_some_iff w p).mp h
  rw [nrmWord_of_nonneg n w (by omega)]
  exact clampRow_of_row? hN w p h

/-- A natural number below `2 ^ 31`, written as a 32-bit word and read signed, is itself. -/
theorem toInt_ofNat_of_lt (k : Nat) (hk : k < 2 ^ 31) : (BitVec.ofNat 32 k).toInt = (k : Int) := by
  rw [BitVec.toInt_eq_toNat_cond, BitVec.toNat_ofNat]
  have hc : k % 2 ^ 32 = k := Nat.mod_eq_of_lt (by omega)
  rw [hc, if_pos (by omega)]

/-- Such a word is left alone by the normalisation. -/
theorem nrmWord_ofNat (n : BitVec 32) (k : Nat) (hk : k < 2 ^ 31) :
    nrmWord n (BitVec.ofNat 32 k) = BitVec.ofNat 32 k :=
  nrmWord_of_nonneg n _ (by rw [toInt_ofNat_of_lt k hk]; omega)

/-- Such a word below the extent names the row `k`. -/
theorem row?_ofNat {E : Nat} (k : Nat) (hk : k < 2 ^ 31) (hkE : k < E) :
    row? E (BitVec.ofNat 32 k) = some ⟨k, hkE⟩ :=
  (row?_eq_some_iff _ _).mpr (toInt_ofNat_of_lt k hk)

/-- Such a word below the extent, clamped into the array, is the row `k`. -/
theorem clampRow_ofNat {E : Nat} (hE : 0 < E) (k : Nat) (hk : k < 2 ^ 31) (hkE : k < E) :
    clampRow E hE (BitVec.ofNat 32 k) = ⟨k, hkE⟩ :=
  clampRow_of_row? hE _ _ (row?_ofNat k hk hkE)

/-- The same, as an equality of natural numbers. -/
theorem clampRow_ofNat_val {E : Nat} (hE : 0 < E) (k : Nat) (hk : k < 2 ^ 31) (hkE : k < E) :
    (clampRow E hE (BitVec.ofNat 32 k)).val = k :=
  congrArg Fin.val (clampRow_ofNat hE k hk hkE)

/-- Normalised and clamped, such a word is still the row `k`. -/
theorem clampRow_nrmWord_ofNat {E : Nat} (hE : 0 < E) (n : BitVec 32) (k : Nat) (hk : k < 2 ^ 31) (hkE : k < E) :
    clampRow E hE (nrmWord n (BitVec.ofNat 32 k)) = ⟨k, hkE⟩ := by
  rw [nrmWord_ofNat n k hk]
  exact clampRow_ofNat hE k hk hkE

end Cert.Spec
-- ==== Proof.KernelStages.lean ====
/-
  The kernel program's host stages between its three regions, read at an index, as lemmas over variables.
  (A) The argsort of the target words: a stable sort of the (word, position) pairs carries the positions along, so
  the sorted positions are a permutation of the edges (`argsortPerm`), and a gather of a table at those positions —
  normalised and clamped as every gather index is — reads the table through that permutation.
  (B) Each aggregation — gather the rows of a feature table at the source words, widen, scatter-add at the target
  words into zeros — is, at an entry, the sum over the edges whose target word names the row of the table's entry at
  the (normalised, clamped) source row.
-/
import proofs.«145530_j23407571763485_2_alg».proof.KernelIdeal
import proofs.«145530_j23407571763485_2_alg».proof.Proof.LibRowOps
import proofs.«145530_j23407571763485_2_alg».proof.Proof.LibVecGather
import proofs.«145530_j23407571763485_2_alg».proof.Proof.LibHostBiasRelu
import proofs.«145530_j23407571763485_2_alg».proof.Proof.SpecWords
import proofs.«145530_j23407571763485_2_alg».proof.Proof.IndexFacts
import Idealize.ShloMosaic.Lib.SortFacts
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Cert.Lib Cert.Spec

namespace Cert.KSide

/-! ## Generic in the extents -/

section Generic
variable {n : Nat}

/-- A rank-1 index built from its coordinate is the sort library's index at that coordinate. -/
theorem ix1_eq_ofFin (k : Fin n) : (ix1 k : (⟨1, ![n]⟩ : Shape).Idx) = Shape.Idx.ofFin k := by
  funext a
  match a with
  | ⟨0, _⟩ => exact Fin.ext rfl

/-- On a rank-1 shape the second component of a two-operand sort along axis 0 reads the second operand through ONE
    self-map of the positions, `sortedFrom` of the comparator on the pairs of the operands' elements. -/
theorem sort2_rank1_snd {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- Position `k`'s (word, position) pair sorts strictly before position `k'`'s. -/
def pairBefore (cmp : BitVec 32 × BitVec 32 → BitVec 32 × BitVec 32 → BitVec 1) (key : IVec ⟨1, ![n]⟩ 32)
    (k k' : Fin n) : Bool :=
  cmp (key (ix1 k), BitVec.ofNat 32 k.val) (key (ix1 k'), BitVec.ofNat 32 k'.val) == 1#1

/-- THE SORTING PERMUTATION of an argsort: sorted position `e` holds the element of position `argsortPerm cmp key e`. -/
def argsortPerm (cmp : BitVec 32 × BitVec 32 → BitVec 32 × BitVec 32 → BitVec 1) (key : IVec ⟨1, ![n]⟩ 32) :
    Fin n ≃ Fin n :=
  Equiv.ofBijective (sortedFrom (pairBefore cmp key)) ⟨sortedFrom_injective _, sortedFrom_surjective _⟩

/-- It is the stable sort's position map under `pairBefore`. -/
theorem argsortPerm_apply (cmp : BitVec 32 × BitVec 32 → BitVec 32 × BitVec 32 → BitVec 1) (key : IVec ⟨1, ![n]⟩ 32)
    (e : Fin n) : argsortPerm cmp key e = sortedFrom (pairBefore cmp key) e := rfl

/-- THE ARGSORT READ AT `e`: the positions carried along by the sort of the words hold, at `e`, the word of the
    position the sorting permutation names. -/
theorem argsort_apply (cmp : BitVec 32 × BitVec 32 → BitVec 32 × BitVec 32 → BitVec 1) (key : IVec ⟨1, ![n]⟩ 32)
    (e : Fin n) :
    (Host.sort2 ⟨1, ![n]⟩ 0 cmp key (iotaInDim ⟨1, ![n]⟩ 32 0)).2 (ix1 e)
      = BitVec.ofNat 32 (argsortPerm cmp key e).val := by
  rw [sort2_rank1_snd, argsortPerm_apply]
  have hB : (fun k k' : Fin n => cmp (key (Shape.Idx.ofFin k), iotaInDim ⟨1, ![n]⟩ 32 0 (Shape.Idx.ofFin k))
      (key (Shape.Idx.ofFin k'), iotaInDim ⟨1, ![n]⟩ 32 0 (Shape.Idx.ofFin k')) == 1#1) = pairBefore cmp key := by
    funext k k'
    unfold pairBefore
    rw [ix1_eq_ofFin, ix1_eq_ofFin]
    rfl
  rw [hB]
  rfl

/-- A vector made a column reads, at `(e, 0)`, the vector at `e`. -/
theorem bcast_col_apply {α : Type} (v : (⟨1, ![n]⟩ : Shape).Idx → α)
    (h : (⟨1, ![n]⟩ : Shape).BroadcastsInDim ⟨2, ![n, 1]⟩ (![0] : Fin 1 → Fin 2)) (e : Fin n) :
    broadcastInDim ⟨2, ![n, 1]⟩ ![0] h v (ix2 e (0 : Fin 1)) = v (ix1 e) :=
  broadcastInDim_apply _ h v (ix2 e (0 : Fin 1)) (ix1 e) fun ax => by
    match ax with
    | ⟨0, _⟩ =>
      show e.val = if n = 1 then 0 else e.val
      split
      · have := e.isLt; omega
      · rfl

/-- Python-style index normalisation of a vector of words, at `e`: the extent added to a negative word. -/
theorem nrm_select_apply (N : BitVec 32) (v : IVec ⟨1, ![n]⟩ 32)
    (h0 : (⟨0, ![]⟩ : Shape).BroadcastsInDim ⟨1, ![n]⟩ (![] : Fin 0 → Fin 1)) (e : Fin n) :
    select (cmpi .slt v (broadcastInDim ⟨1, ![n]⟩ ![] h0 (constantI ⟨0, ![]⟩ 32 0#32)))
        (addi v (broadcastInDim ⟨1, ![n]⟩ ![] h0 (constantI ⟨0, ![]⟩ 32 N))) v (ix1 e)
      = nrmWord N (v (ix1 e)) := by
  show Scalar.select (IntOp.cmpi .slt (v (ix1 e)) (broadcastInDim ⟨1, ![n]⟩ ![] h0 (constantI ⟨0, ![]⟩ 32 0#32) (ix1 e)))
    (IntOp.addi (v (ix1 e)) (broadcastInDim ⟨1, ![n]⟩ ![] h0 (constantI ⟨0, ![]⟩ 32 N) (ix1 e))) (v (ix1 e)) = _
  rw [bcast_scalar_apply, bcast_scalar_apply]
  rfl

/-- A GATHER AT POSITIONS: when the index vector holds, at every `e`, the word of a position `σ e` of the table, the
    gather of the table at the normalised indices reads the table at `σ e`. -/
theorem gather_positions_apply (hn : 0 < n) (hn31 : n ≤ 2 ^ 31) (N : BitVec 32)
    (wf : GatherDims.WF ⟨1, ![n]⟩ ⟨2, ![n, 1]⟩ ⟨1, ![n]⟩ [] [0] [] [0] [] 1 ![1])
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    {α : Type} (tbl : (⟨1, ![n]⟩ : Shape).Idx → α) (ord : IVec ⟨1, ![n]⟩ 32) (σ : Fin n → Fin n)
    (hord : ∀ e, ord (ix1 e) = BitVec.ofNat 32 (σ e).val) (e : Fin n) :
    Host.gather (vecGather n n wf) tbl
        (broadcastInDim ⟨2, ![n, 1]⟩ ![0] hc
          (select (cmpi .slt ord (broadcastInDim ⟨1, ![n]⟩ ![] h0 (constantI ⟨0, ![]⟩ 32 0#32)))
            (addi ord (broadcastInDim ⟨1, ![n]⟩ ![] h0 (constantI ⟨0, ![]⟩ 32 N))) ord)) (ix1 e)
      = tbl (ix1 (σ e)) := by
  refine (vecGather_apply hn wf tbl _ e).trans ?_
  rw [bcast_col_apply, nrm_select_apply, hord]
  refine congrArg (fun r => tbl (ix1 r)) ?_
  have hk : (σ e).val < 2 ^ 31 := lt_of_lt_of_le (σ e).isLt hn31
  exact clampRow_nrmWord_ofNat hn N (σ e).val hk (σ e).isLt

/-- AN AGGREGATION AT `(p, q)`: rows of `h` gathered at the normalised source words, widened, and scatter-added at the
    target words into zeros: the sum, over the edges whose target word names row `p`, of `h` at the clamped
    normalised source row and column `q`. -/
theorem aggregate_apply {N E D : Nat} (hN : 0 < N) (Nw : BitVec 32)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (h0 : (⟨0, ![]⟩ : Shape).BroadcastsInDim ⟨2, ![N, D]⟩ (![] : Fin 0 → Fin 2))
    (h0e : (⟨0, ![]⟩ : Shape).BroadcastsInDim ⟨1, ![E]⟩ (![] : Fin 0 → Fin 1))
    (hc : (⟨1, ![E]⟩ : Shape).BroadcastsInDim ⟨2, ![E, 1]⟩ (![0] : Fin 1 → Fin 2))
    (hlt : FTy.bits .bf16 < FTy.bits .f32)
    (h : FVec Ideal ⟨2, ![N, D]⟩ .bf16) (srcS dstS : IVec ⟨1, ![E]⟩ 32) (p : Fin N) (q : Fin D) :
    Host.scatterAdd (F := Ideal) (rowScatter N E D wfS)
        (broadcastInDim ⟨2, ![N, D]⟩ ![] h0 (constant (F := Ideal) ⟨0, ![]⟩ .f32 0x00000000#32))
        (broadcastInDim ⟨2, ![E, 1]⟩ ![0] hc dstS)
        (extf (F := Ideal) .f32 (Host.gather (rowGather N E D wfG) h (broadcastInDim ⟨2, ![E, 1]⟩ ![0] hc
          (select (cmpi .slt srcS (broadcastInDim ⟨1, ![E]⟩ ![] h0e (constantI ⟨0, ![]⟩ 32 0#32)))
            (addi srcS (broadcastInDim ⟨1, ![E]⟩ ![] h0e (constantI ⟨0, ![]⟩ 32 Nw))) srcS))) hlt) (ix2 p q)
      = 0 + ∑ e ∈ Finset.univ.filter (fun e : Fin E => row? N (dstS (ix1 e)) = some p),
          h (ix2 (clampRow N hN (nrmWord Nw (srcS (ix1 e)))) q) := by
  refine (rowScatterAdd_apply wfS _ _ _ p q).trans ?_
  rw [bcast_scalar_apply, constant_apply, Ideal.ofBits_zero_f32]
  have hset : Finset.univ.filter (fun e : Fin E =>
        row? N (broadcastInDim ⟨2, ![E, 1]⟩ ![0] hc dstS (ix2 e (0 : Fin 1))) = some p)
      = Finset.univ.filter (fun e : Fin E => row? N (dstS (ix1 e)) = some p) :=
    Finset.filter_congr fun e _ => by rw [bcast_col_apply]
  rw [hset]
  refine congrArg (fun z : EReal => 0 + z) (Finset.sum_congr rfl fun e _ => ?_)
  rw [extf_apply]
  refine (rowGather_apply hN wfG h _ e q).trans ?_
  rw [bcast_col_apply, nrm_select_apply]

end Generic

/-! ## At the program's extents -/

section Program
open Cert.KernelIdeal
variable [Cert.KernelIdeal.Facts₀]
open Cert.KernelIdeal.Facts₀

/-! The printed dimension numbers are the generic ones. -/

theorem vecGather_rec : gather_S1700000_S1700000x1_S1700000_n_0_n_n_0_1_1
    = vecGather 1700000 1700000 gather_S1700000_S1700000x1_S1700000_n_0_n_n_0_1_1_wf := rfl

theorem rowGather64_rec : gather_S100000x64_S1700000x1_S1700000x64_1_0_n_n_0_1_164
    = rowGather 100000 1700000 64 gather_S100000x64_S1700000x1_S1700000x64_1_0_n_n_0_1_164_wf := rfl

theorem rowGather32_rec : gather_S100000x32_S1700000x1_S1700000x32_1_0_n_n_0_1_132
    = rowGather 100000 1700000 32 gather_S100000x32_S1700000x1_S1700000x32_1_0_n_n_0_1_132_wf := rfl

theorem rowScatter64_rec : scatter_S100000x64_S1700000x1_S1700000x64_1_0_0_1
    = rowScatter 100000 1700000 64 scatter_S100000x64_S1700000x1_S1700000x64_1_0_0_1_wf := rfl

theorem rowScatter32_rec : scatter_S100000x32_S1700000x1_S1700000x32_1_0_0_1
    = rowScatter 100000 1700000 32 scatter_S100000x32_S1700000x1_S1700000x32_1_0_0_1_wf := rfl

/-- THE KERNEL'S SORTING PERMUTATION of the edges by target word (ties in the order of the edges). -/
abbrev sortPerm (key : IVec S1700000 32) : Fin 1700000 ≃ Fin 1700000 := argsortPerm comparator_i32_i32_d0 key

/-- The argsort of the target words at `e` is the word of the position the sorting permutation names. -/
theorem order_apply (key : IVec S1700000 32) (e : Fin 1700000) :
    (Host.sort2 S1700000 0 comparator_i32_i32_d0 key (iotaInDim S1700000 32 0)).2 (ix1 e)
      = BitVec.ofNat 32 (sortPerm key e).val :=
  argsort_apply comparator_i32_i32_d0 key e

/-- A gather of a table of the edges at an index vector that holds, at every `e`, the word of a position `σ e`:
    the table at `σ e`. -/
theorem gather_at_order {α : Type} (tbl : S1700000.Idx → α) (ord : IVec S1700000 32) (σ : Fin 1700000 → Fin 1700000)
    (hord : ∀ e, ord (ix1 e) = BitVec.ofNat 32 (σ e).val) (e : Fin 1700000) :
    Host.gather gather_S1700000_S1700000x1_S1700000_n_0_n_n_0_1_1 tbl
        (broadcastInDim S1700000x1 ![0] bcast_S1700000_S1700000x1_0
          (select (cmpi .slt ord (broadcastInDim S1700000 ![] bcast_S_S1700000 (constantI S_ 32 0#32)))
            (addi ord (broadcastInDim S1700000 ![] bcast_S_S1700000 (constantI S_ 32 1700000#32))) ord)) (ix1 e)
      = tbl (ix1 (σ e)) := by
  rw [vecGather_rec]
  exact gather_positions_apply (by decide) (by norm_num) 1700000#32 _ bcast_S_S1700000 bcast_S1700000_S1700000x1_0
    tbl ord σ hord e

/-- A TABLE GATHERED IN SORTED ORDER: at `e` it is the table at the edge the sorting permutation names. -/
theorem sorted_gather_apply (key tbl : IVec S1700000 32) (e : Fin 1700000) :
    Host.gather gather_S1700000_S1700000x1_S1700000_n_0_n_n_0_1_1 tbl
        (broadcastInDim S1700000x1 ![0] bcast_S1700000_S1700000x1_0
          (select (cmpi .slt (Host.sort2 S1700000 0 comparator_i32_i32_d0 key (iotaInDim S1700000 32 0)).2
              (broadcastInDim S1700000 ![] bcast_S_S1700000 (constantI S_ 32 0#32)))
            (addi (Host.sort2 S1700000 0 comparator_i32_i32_d0 key (iotaInDim S1700000 32 0)).2
              (broadcastInDim S1700000 ![] bcast_S_S1700000 (constantI S_ 32 1700000#32)))
            (Host.sort2 S1700000 0 comparator_i32_i32_d0 key (iotaInDim S1700000 32 0)).2)) (ix1 e)
      = tbl (ix1 (sortPerm key e)) :=
  gather_at_order tbl _ (fun e => sortPerm key e) (order_apply key) e

/-- THE FIRST AGGREGATION at `(p, q)`. -/
theorem agg64_apply (h : FVec Ideal S100000x64 .bf16) (srcS dstS : IVec S1700000 32) (p : Fin 100000) (q : Fin 64) :
    Host.scatterAdd (F := Ideal) scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 dstS)
        (extf (F := Ideal) (φ := .bf16) .f32 (Host.gather gather_S100000x64_S1700000x1_S1700000x64_1_0_n_n_0_1_164 h
          (broadcastInDim S1700000x1 ![0] bcast_S1700000_S1700000x1_0
            (select (cmpi .slt srcS (broadcastInDim S1700000 ![] bcast_S_S1700000 (constantI S_ 32 0#32)))
              (addi srcS (broadcastInDim S1700000 ![] bcast_S_S1700000 (constantI S_ 32 100000#32))) srcS)))
          bitsLt_bf16_f32) (ix2 p q)
      = 0 + ∑ e ∈ Finset.univ.filter (fun e : Fin 1700000 => Cert.Lib.row? 100000 (dstS (ix1 e)) = some p),
          h (ix2 (Cert.Lib.clampRow 100000 (by decide) (Cert.Spec.nrmWord 100000#32 (srcS (ix1 e)))) q) := by
  rw [rowScatter64_rec, rowGather64_rec]
  exact aggregate_apply (by decide) 100000#32 _ _ bcast_S_S100000x64 bcast_S_S1700000 bcast_S1700000_S1700000x1_0
    bitsLt_bf16_f32 h srcS dstS p q

/-- THE SECOND AGGREGATION at `(p, q)`. -/
theorem agg32_apply (h : FVec Ideal S100000x32 .bf16) (srcS dstS : IVec S1700000 32) (p : Fin 100000) (q : Fin 32) :
    Host.scatterAdd (F := Ideal) scatter_S100000x32_S1700000x1_S1700000x32_1_0_0_1
        (broadcastInDim S100000x32 ![] bcast_S_S100000x32 (constant (F := Ideal) S_ .f32 0x00000000#32))
        (broadcastInDim S1700000x1 ![0] bcast_S1700000_S1700000x1_0 dstS)
        (extf (F := Ideal) (φ := .bf16) .f32 (Host.gather gather_S100000x32_S1700000x1_S1700000x32_1_0_n_n_0_1_132 h
          (broadcastInDim S1700000x1 ![0] bcast_S1700000_S1700000x1_0
            (select (cmpi .slt srcS (broadcastInDim S1700000 ![] bcast_S_S1700000 (constantI S_ 32 0#32)))
              (addi srcS (broadcastInDim S1700000 ![] bcast_S_S1700000 (constantI S_ 32 100000#32))) srcS)))
          bitsLt_bf16_f32) (ix2 p q)
      = 0 + ∑ e ∈ Finset.univ.filter (fun e : Fin 1700000 => Cert.Lib.row? 100000 (dstS (ix1 e)) = some p),
          h (ix2 (Cert.Lib.clampRow 100000 (by decide) (Cert.Spec.nrmWord 100000#32 (srcS (ix1 e)))) q) := by
  rw [rowScatter32_rec, rowGather32_rec]
  exact aggregate_apply (by decide) 100000#32 _ _ bcast_S_S100000x32 bcast_S_S1700000 bcast_S1700000_S1700000x1_0
    bitsLt_bf16_f32 h srcS dstS p q

end Program

/- The sorting permutation enters every later argument through `argsortPerm_apply` and its bijectivity alone; it is
   sealed so that no later step unfolds it into the sort itself. -/
attribute [irreducible] argsortPerm

end Cert.KSide

end
-- ==== Proof.LibGcnTile.lean ====
/-
  The self-loop, bias and rectifier stage of a graph-convolution layer, read at an entry (p, q) in its two spellings.

  * In a row tile: the aggregated block plus the projected block times a column of per-row weights, the column a
    `[A, 1]` block broadcast across the lanes; plus a `[1, B]` bias row broadcast down the rows; then the maximum
    with the zero splat.
  * In a host program: the same sum with the weights a vector `[A]` made a column `[A, 1]` and repeated to
    `[A, B]`, the bias a vector `[B]` made a row `[1, B]` and repeated to `[A, B]`, and the zero a scalar
    constant repeated to `[A, B]`.

  Both read, at (p, q), `max ((agg (p, q) + xw (p, q) * w p) + bias q) 0` on the extended reals.  Generic in the two
  extents.
-/
import Idealize.ShloMosaic.Lib.ValueLayout
import Idealize.ShloMosaic.Lib.Pipeline.Value
import Idealize.ShloMosaic.Lib.ValueIdx
import proofs.«145530_j23407571763485_2_alg».proof.Proof.LibHostRowCol
import proofs.«145530_j23407571763485_2_alg».proof.Proof.LibHostBiasRelu

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stage in a row tile, at entry (p, q). -/
theorem tileSelfBiasRelu_apply {A B : ℕ} (x0 x1 : FVec Ideal ⟨2, ![A, B]⟩ .f32) (x2 : FVec Ideal ⟨2, ![A, 1]⟩ .f32)
    (x3 : FVec Ideal ⟨2, ![1, B]⟩ .f32)
    (h0 : (⟨2, ![A, B]⟩ : Shape).ShapeCasts ⟨2, ![A, B]⟩) (h2 : (⟨2, ![A, 1]⟩ : Shape).ShapeCasts ⟨2, ![A, 1]⟩)
    (hb2 : (⟨2, ![A, 1]⟩ : Shape).Broadcasts ⟨2, ![A, B]⟩) (h3 : (⟨2, ![1, B]⟩ : Shape).ShapeCasts ⟨2, ![1, B]⟩)
    (hb3 : (⟨2, ![1, B]⟩ : Shape).Broadcasts ⟨2, ![A, B]⟩) (p : Fin A) (q : Fin B) :
    maximumf (addf (addf (shapeCast ⟨2, ![A, B]⟩ x0 h0)
          (mulf (shapeCast ⟨2, ![A, B]⟩ x1 h0) (broadcastTo ⟨2, ![A, B]⟩ (shapeCast ⟨2, ![A, 1]⟩ x2 h2) hb2)))
        (broadcastTo ⟨2, ![A, B]⟩ (shapeCast ⟨2, ![1, B]⟩ x3 h3) hb3))
      (broadcast ⟨2, ![A, B]⟩ (Scalar.ofBits (F := Ideal) .f32 0x00000000#32)) (ix2 p q)
      = max ((x0 (ix2 p q) + x1 (ix2 p q) * x2 (ix2 p (0 : Fin 1))) + x3 (ix2 (0 : Fin 1) q))
          (Ideal.ofBits .f32 0x00000000#32) := by
  rw [maximumf_apply, addf_apply, addf_apply, mulf_apply, shapeCast_self, shapeCast_self, shapeCast_self,
    shapeCast_self, broadcastTo_a1_ab_apply, broadcastTo_1b_ab_apply, broadcast_apply]
  rfl

/-- The stage in a host program, at entry (p, q). -/
theorem hostSelfBiasRelu_apply {A B : ℕ} (agg xw : FVec Ideal ⟨2, ![A, B]⟩ .f32) (w : FVec Ideal ⟨1, ![A]⟩ .f32)
    (bias : FVec Ideal ⟨1, ![B]⟩ .f32)
    (hc1 : (⟨1, ![A]⟩ : Shape).BroadcastsInDim ⟨2, ![A, 1]⟩ (![0] : Fin 1 → Fin 2))
    (hc2 : (⟨2, ![A, 1]⟩ : Shape).BroadcastsInDim ⟨2, ![A, B]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2)) (p : Fin A) (q : Fin B) :
    maximumf (addf (addf agg (mulf xw (broadcastInDim ⟨2, ![A, B]⟩ ![0, 1] hc2 (broadcastInDim ⟨2, ![A, 1]⟩ ![0] hc1 w))))
          (broadcastInDim ⟨2, ![A, B]⟩ ![0, 1] hr2 (broadcastInDim ⟨2, ![1, B]⟩ ![1] hr1 bias)))
        (broadcastInDim ⟨2, ![A, B]⟩ ![] hz (constant (F := Ideal) ⟨0, ![]⟩ .f32 0x00000000#32)) (ix2 p q)
      = max ((agg (ix2 p q) + xw (ix2 p q) * w (ix1 p)) + bias (ix1 q)) (Ideal.ofBits .f32 0x00000000#32) := by
  rw [hostBiasRelu_apply _ bias hr1 hr2 hz p q, addf_apply, mulf_apply, bcast_col_cols_apply w hc1 hc2 p q]

end Cert.Lib

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«145530_j23407571763485_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.RegionA.lean ====
/-
  The first region as a whole-array function.

  The region cuts the feature array [100000, 256] and the scale column [100000, 1] into 25 row blocks of 4000 rows,
  keeps the weight matrix [256, 64] whole, and at grid point t writes rows 4000·t … 4000·t + 3999 of its result: the
  block of features times the weights, each row then multiplied by the row's scale. So entry (p, q) of the result
  array after the 25 points is (∑ k < 256, x (p, k) · w (k, q)) · s (p, 0), for the arrays x, w, s the region found.

  Steps: the tile's payload at an entry (`tileA_apply`); the same with each block read as its rows of the arrays
  (`tileA_at`); the printed index maps over the grid (`tileIndexA`); each window's block as rows of its array
  (`blockA0`, `blockA1`, `blockA2`); what a point writes back (`flushedA_eq`); every row is covered by the point
  row / 4000 (`coverA`); the array after the run (`regionA_array`, `regionA_final`).
-/
import proofs.«145530_j23407571763485_2_alg».proof.Proof.Gen.KernelIdeal.Frame
import proofs.«145530_j23407571763485_2_alg».proof.Proof.LibGcnTile
import proofs.«145530_j23407571763485_2_alg».proof.Proof.LibAffineLayer
import proofs.«145530_j23407571763485_2_alg».proof.Proof.LibMatmul2
import Idealize.ShloMosaic.Lib.Pipeline.Value
import Idealize.ShloMosaic.Lib.ValueLayout
import Idealize.ShloMosaic.Lib.ValueIdx

noncomputable section

namespace Cert.KernelIdeal.RegionA

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOffsets : (![0, 0] : Fin 2 → Nat) = fun _ => 0 := funext fun a => by fin_cases a <;> rfl

/-- The printed dimension numbers of the first product are the plain ones. -/
theorem dotA_eq : dot_S4000x256_S256x64_S4000x64_1_0_0_1_n_n
    = Cert.Lib.plain2 dot_S4000x256_S256x64_S4000x64_1_0_0_1_n_n_wf := rfl

/-- Entry (p, q) of the projected and scaled features: row p of the features times column q of the weights,
    times the row's scale. -/
def projScaledAt (a0 : S100000x256.Idx → EReal) (a1 : S256x64.Idx → EReal) (a2 : S100000x1.Idx → EReal)
    (p : Fin 100000) (q : Fin 64) : EReal :=
  (∑ k : Fin 256, a0 (ix2 p k) * a1 (ix2 k q)) * a2 (ix2 p (0 : Fin 1))

/-- The whole array of them. -/
def projScaled (a0 : S100000x256.Idx → EReal) (a1 : S256x64.Idx → EReal) (a2 : S100000x1.Idx → EReal) :
    S100000x64.Idx → EReal := fun i => projScaledAt a0 a1 a2 (i 0) (i 1)

/-- One row tile of the first region at entry (p, q). -/
theorem tileA_apply (x0 : Vec Ideal S4000x256 .f32) (x1 : Vec Ideal S256x64 .f32) (x2 : Vec Ideal S4000x1 .f32)
    (p : Fin 4000) (q : Fin 64) :
    k0_pay1 (F := Ideal) x0 x1 x2 (ix2 p q)
      = (∑ k : Fin 256, x0 (ix2 p k) * x1 (ix2 k q)) * x2 (ix2 p (0 : Fin 1)) := by
  unfold k0_pay1
  rw [truncf_apply, mulf_apply, shapeCast_self, Cert.Lib.broadcastTo_a1_ab_apply, dotA_eq,
    Cert.Lib.matmul2_zero_apply]
  rfl

/-- A row tile whose blocks are rows T·4000 … of the arrays is that row range of the whole-array result. -/
theorem tileA_at (x0 : Vec Ideal S4000x256 .f32) (x1 : Vec Ideal S256x64 .f32) (x2 : Vec Ideal S4000x1 .f32)
    (a0 : S100000x256.Idx → EReal) (a1 : S256x64.Idx → EReal) (a2 : S100000x1.Idx → EReal) (T : Nat)
    (h0 : ∀ (y : S4000x256.Idx) (i : S100000x256.Idx), (i 0).val = T * 4000 + (y 0).val → (i 1).val = (y 1).val → x0 y = a0 i)
    (h1 : x1 = a1)
    (h2 : ∀ (y : S4000x1.Idx) (i : S100000x1.Idx), (i 0).val = T * 4000 + (y 0).val → x2 y = a2 i)
    (y : S4000x64.Idx) (i : S100000x64.Idx) (hi0 : (i 0).val = T * 4000 + (y 0).val) (hi1 : (i 1).val = (y 1).val) :
    k0_pay1 (F := Ideal) x0 x1 x2 y = projScaled a0 a1 a2 i := by
  obtain ⟨p, q, rfl⟩ : ∃ (p : Fin 4000) (q : Fin 64), y = ix2 p q := ⟨y 0, y 1, eq_ix2 y⟩
  obtain ⟨P, Q, rfl⟩ : ∃ (P : Fin 100000) (Q : Fin 64), i = ix2 P Q := ⟨i 0, i 1, eq_ix2 i⟩
  have hP : P.val = T * 4000 + p.val := hi0
  obtain rfl : Q = q := Fin.ext hi1
  rw [tileA_apply]
  show _ = (∑ k : Fin 256, a0 (ix2 P k) * a1 (ix2 k Q)) * a2 (ix2 P (0 : Fin 1))
  subst h1
  rw [h2 (ix2 p (0 : Fin 1)) (ix2 P (0 : Fin 1)) hP]
  refine congrArg (· * _) (Finset.sum_congr rfl fun k _ => ?_)
  rw [h0 (ix2 p k) (ix2 P k) hP rfl]

/-- The printed index maps over the grid: the row-tiled windows sit at row block t, the weights at block (0, 0). -/
theorem tileIndexA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point t holds rows t·4000 … of the feature array. -/
theorem blockA0 (c : Dev nD) (t : Fin cfg0.N) (y : S4000x256.Idx) (i : S100000x256.Idx)
    (hi0 : (i 0).val = t.val * 4000 + (y 0).val) (hi1 : (i 1).val = (y 1).val) :
    (iblk0 V c 0 t : Vec Ideal S4000x256 .f32) y = (V c (Pipeline.arrRef spec0 0) : S100000x256.Idx → EReal) i := by
  obtain ⟨e0, e1, -⟩ := tileIndexA t
  unfold iblk0
  rw [View.read_apply]
  show V c (Pipeline.arrRef spec0 0) _ = V c (Pipeline.arrRef spec0 0) _
  congr 1
  funext a
  apply Fin.ext
  match a with
  | ⟨0, _⟩ => show win0_0.index t 0 * 4000 + 1 * (y 0).val = (i 0).val; rw [e0, hi0]; omega
  | ⟨1, _⟩ => show win0_0.index t 1 * 256 + 1 * (y 1).val = (i 1).val; rw [e1, hi1]; omega

/-- The weight window's block at every point is the whole weight array. -/
theorem blockA1 (c : Dev nD) (t : Fin cfg0.N) :
    (iblk0 V c 1 t : Vec Ideal S256x64 .f32) = (V c (Pipeline.arrRef spec0 1) : S256x64.Idx → EReal) := by
  obtain ⟨-, -, e0, e1, -⟩ := tileIndexA t
  funext y
  unfold iblk0
  rw [View.read_apply]
  show V c (Pipeline.arrRef spec0 1) _ = V c (Pipeline.arrRef spec0 1) _
  congr 1
  funext a
  apply Fin.ext
  match a with
  | ⟨0, _⟩ => show win0_1.index t 0 * 256 + 1 * (y 0).val = (y 0).val; rw [e0]; omega
  | ⟨1, _⟩ => show win0_1.index t 1 * 64 + 1 * (y 1).val = (y 1).val; rw [e1]; omega

/-- The scale window's block at point t holds rows t·4000 … of the scale column. -/
theorem blockA2 (c : Dev nD) (t : Fin cfg0.N) (y : S4000x1.Idx) (i : S100000x1.Idx)
    (hi0 : (i 0).val = t.val * 4000 + (y 0).val) :
    (iblk0 V c 2 t : Vec Ideal S4000x1 .f32) y = (V c (Pipeline.arrRef spec0 2) : S100000x1.Idx → EReal) i := by
  obtain ⟨-, -, -, -, e0, e1, -⟩ := tileIndexA t
  unfold iblk0
  rw [View.read_apply]
  show V c (Pipeline.arrRef spec0 2) _ = V c (Pipeline.arrRef spec0 2) _
  congr 1
  funext a
  apply Fin.ext
  match a with
  | ⟨0, _⟩ => show win0_2.index t 0 * 4000 + 1 * (y 0).val = (i 0).val; rw [e0, hi0]; omega
  | ⟨1, _⟩ =>
    show win0_2.index t 1 * 1 + 1 * (y 1).val = (i 1).val
    have h1 : (y 1).val < 1 := (y 1).isLt
    have h2 : (i 1).val < 1 := (i 1).isLt
    rw [e1]; omega

/-- What point t writes back is rows t·4000 … of the whole-array result. -/
theorem flushedA_eq (c : Dev nD) (t : Fin cfg0.N) :
    (dat0 V c).flushed 3 t = ((cfg0.win 3).blk t).view.read (Elt Ideal)
      (projScaled (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOffsets]
  simp only [View.ld_unit_zero (S := S4000x256) zeroOffsets, View.ld_unit_zero (S := S256x64) zeroOffsets,
    View.ld_unit_zero (S := S4000x1) zeroOffsets]
  obtain ⟨-, -, -, -, -, -, e0, e1⟩ := tileIndexA t
  funext j
  refine tileA_at (iblk0 V c 0 t) (iblk0 V c 1 t) (iblk0 V c 2 t) _ _ _ t.val
    (fun y i h0 h1 => blockA0 V c t y i h0 h1) (blockA1 V c t) (fun y i h0 => blockA2 V c t y i h0) _ _ ?_ ?_
  · show win0_3.index t 0 * 4000 + 1 * (j 0).val = t.val * 4000 + (j 0).val; rw [e0]; omega
  · show win0_3.index t 1 * 64 + 1 * (j 1).val = (j 1).val; rw [e1]; omega

/-- An index of the result array is in point t's block iff each coordinate is in the block's range on its axis. -/
theorem mem_blockA (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v33).slice (win0_3.rect t)).set ↔ _
  rw [View.set_slice_whole, Rect.mem_set_unit]
  exact Iff.rfl

/-- Row r of the result array is in the block of point r / 4000. -/
theorem coverA (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e0, e1⟩ := tileIndexA t
  refine ⟨t, flush0_3 t, ?_⟩
  rw [mem_blockA]
  intro a
  match a with
  | ⟨0, _⟩ =>
    show win0_3.index t 0 * 4000 ≤ (i 0).val ∧ (i 0).val < win0_3.index t 0 * 4000 + 4000
    rw [e0, ht]; omega
  | ⟨1, _⟩ =>
    show win0_3.index t 1 * 64 ≤ (i 1).val ∧ (i 1).val < win0_3.index t 1 * 64 + 64
    rw [e1]; omega

/-- The first region's result array after its 25 points, as one function of the arrays it found. -/
theorem regionA_array (c : Dev nD) :
    (dat0 V c).arrAt 3 cfg0.N
      = projScaled (V c (Pipeline.arrRef spec0 0)) (V c (Pipeline.arrRef spec0 1)) (V c (Pipeline.arrRef spec0 2)) :=
  (dat0 V c).arrAt_eq_of_cover 3 _ (fun t _ => flushedA_eq V c t) coverA

/-- Entry (p, q) of it: row p of the features times column q of the weights, times the row's scale. -/
theorem regionA_final (c : Dev nD) (a0 : S100000x256.Idx → EReal) (a1 : S256x64.Idx → EReal) (a2 : S100000x1.Idx → EReal)
    (h0 : V c (Pipeline.arrRef spec0 0) = a0) (h1 : V c (Pipeline.arrRef spec0 1) = a1)
    (h2 : V c (Pipeline.arrRef spec0 2) = a2) (p : Fin 100000) (q : Fin 64) :
    (dat0 V c).arrAt 3 cfg0.N (ix2 p q)
      = (∑ k : Fin 256, a0 (ix2 p k) * a1 (ix2 k q)) * a2 (ix2 p (0 : Fin 1)) := by
  subst h0 h1 h2
  rw [regionA_array]
  rfl

end Cert.KernelIdeal.RegionA

end
-- ==== Proof.RegionB.lean ====
/-
  The second region as a whole-array function.

  The region cuts the aggregate array [100000, 64] and the scale column [100000, 1] into 25 row blocks of 4000 rows,
  keeps the bias row [1, 64] and the weight matrix [64, 32] whole, and at grid point t writes rows 4000·t … of its
  result: each row of the aggregate block times the row's scale, plus the bias, rectified; that block times the
  weights; each row then multiplied by the row's scale again. So entry (p, q) of the result array after the 25
  points is (∑ k < 64, max (s1 (p, k) · d (p, 0) + b (0, k)) 0 · w (k, q)) · d (p, 0).

  Steps: the tile's payload at an entry (`tileB_apply`); the same with each block read as its rows of the arrays
  (`tileB_at`); the printed index maps over the grid (`tileIndexB`); each window's block as rows of its array
  (`blockB0` … `blockB3`); what a point writes back (`flushedB_eq`); every row is covered by the point row / 4000
  (`coverB`); the array after the run (`regionB_array`, `regionB_final`).
-/
import proofs.«145530_j23407571763485_2_alg».proof.Proof.Gen.KernelIdeal.Frame
import proofs.«145530_j23407571763485_2_alg».proof.Proof.LibGcnTile
import proofs.«145530_j23407571763485_2_alg».proof.Proof.LibAffineLayer
import proofs.«145530_j23407571763485_2_alg».proof.Proof.LibMatmul2
import Idealize.ShloMosaic.Lib.Pipeline.Value
import Idealize.ShloMosaic.Lib.ValueLayout
import Idealize.ShloMosaic.Lib.ValueIdx

noncomputable section

namespace Cert.KernelIdeal.RegionB

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOffsets : (![0, 0] : Fin 2 → Nat) = fun _ => 0 := funext fun a => by fin_cases a <;> rfl

/-- The printed dimension numbers of the second product are the plain ones. -/
theorem dotB_eq : dot_S4000x64_S64x32_S4000x32_1_0_0_1_n_n
    = Cert.Lib.plain2 dot_S4000x64_S64x32_S4000x32_1_0_0_1_n_n_wf := rfl

/-- Entry (p, q) of the second layer's projected and scaled features: row p of the aggregate, scaled, biased and
    rectified, times column q of the weights, times the row's scale. -/
def hiddenScaledAt (a0 : S100000x64.Idx → EReal) (a1 : S100000x1.Idx → EReal) (a2 : S1x64.Idx → EReal)
    (a3 : S64x32.Idx → EReal) (p : Fin 100000) (q : Fin 32) : EReal :=
  (∑ k : Fin 64, max (a0 (ix2 p k) * a1 (ix2 p (0 : Fin 1)) + a2 (ix2 (0 : Fin 1) k)) 0 * a3 (ix2 k q))
    * a1 (ix2 p (0 : Fin 1))

/-- The whole array of them. -/
def hiddenScaled (a0 : S100000x64.Idx → EReal) (a1 : S100000x1.Idx → EReal) (a2 : S1x64.Idx → EReal)
    (a3 : S64x32.Idx → EReal) : S100000x32.Idx → EReal := fun i => hiddenScaledAt a0 a1 a2 a3 (i 0) (i 1)

/-- One row tile of the second region at entry (p, q). -/
theorem tileB_apply (x0 : Vec Ideal S4000x64 .f32) (x1 : Vec Ideal S4000x1 .f32) (x2 : Vec Ideal S1x64 .f32)
    (x3 : Vec Ideal S64x32 .f32) (x4 : Vec Ideal S4000x1 .f32) (p : Fin 4000) (q : Fin 32) :
    k1_pay1 (F := Ideal) x0 x1 x2 x3 x4 (ix2 p q)
      = (∑ k : Fin 64, max (x0 (ix2 p k) * x1 (ix2 p (0 : Fin 1)) + x2 (ix2 (0 : Fin 1) k)) 0 * x3 (ix2 k q))
          * x4 (ix2 p (0 : Fin 1)) := by
  unfold k1_pay1
  simp only [shapeCast_self]
  rw [truncf_apply, mulf_apply, Cert.Lib.broadcastTo_a1_ab_apply, dotB_eq, Cert.Lib.matmul2_zero_apply]
  refine congrArg (· * _) (Finset.sum_congr rfl fun k _ => ?_)
  rw [truncf_apply, truncf_apply, maximumf_apply, addf_apply, mulf_apply, Cert.Lib.broadcastTo_a1_ab_apply,
    broadcastTo_1b_ab_apply, broadcast_apply]
  show max _ (Ideal.ofBits .f32 0x00000000#32) * _ = _
  rw [Ideal.ofBits_zero_f32]

/-- A row tile whose blocks are rows T·4000 … of the arrays is that row range of the whole-array result. -/
theorem tileB_at (x0 : Vec Ideal S4000x64 .f32) (x1 : Vec Ideal S4000x1 .f32) (x2 : Vec Ideal S1x64 .f32)
    (x3 : Vec Ideal S64x32 .f32) (x4 : Vec Ideal S4000x1 .f32)
    (a0 : S100000x64.Idx → EReal) (a1 : S100000x1.Idx → EReal) (a2 : S1x64.Idx → EReal) (a3 : S64x32.Idx → EReal)
    (T : Nat)
    (h0 : ∀ (y : S4000x64.Idx) (i : S100000x64.Idx), (i 0).val = T * 4000 + (y 0).val → (i 1).val = (y 1).val → x0 y = a0 i)
    (h1 : ∀ (y : S4000x1.Idx) (i : S100000x1.Idx), (i 0).val = T * 4000 + (y 0).val → x1 y = a1 i)
    (h2 : x2 = a2) (h3 : x3 = a3)
    (h4 : ∀ (y : S4000x1.Idx) (i : S100000x1.Idx), (i 0).val = T * 4000 + (y 0).val → x4 y = a1 i)
    (y : S4000x32.Idx) (i : S100000x32.Idx) (hi0 : (i 0).val = T * 4000 + (y 0).val) (hi1 : (i 1).val = (y 1).val) :
    k1_pay1 (F := Ideal) x0 x1 x2 x3 x4 y = hiddenScaled a0 a1 a2 a3 i := by
  obtain ⟨p, q, rfl⟩ : ∃ (p : Fin 4000) (q : Fin 32), y = ix2 p q := ⟨y 0, y 1, eq_ix2 y⟩
  obtain ⟨P, Q, rfl⟩ : ∃ (P : Fin 100000) (Q : Fin 32), i = ix2 P Q := ⟨i 0, i 1, eq_ix2 i⟩
  have hP : P.val = T * 4000 + p.val := hi0
  obtain rfl : Q = q := Fin.ext hi1
  rw [tileB_apply]
  show _ = (∑ k : Fin 64, max (a0 (ix2 P k) * a1 (ix2 P (0 : Fin 1)) + a2 (ix2 (0 : Fin 1) k)) 0 * a3 (ix2 k Q))
    * a1 (ix2 P (0 : Fin 1))
  subst h2 h3
  rw [h4 (ix2 p (0 : Fin 1)) (ix2 P (0 : Fin 1)) hP, h1 (ix2 p (0 : Fin 1)) (ix2 P (0 : Fin 1)) hP]
  refine congrArg (· * _) (Finset.sum_congr rfl fun k _ => ?_)
  rw [h0 (ix2 p k) (ix2 P k) hP rfl]

/-- The printed index maps over the grid: the row-tiled windows sit at row block t, the small arrays at block (0, 0). -/
theorem tileIndexB : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate window's block at point t holds rows t·4000 … of the aggregate array. -/
theorem blockB0 (c : Dev nD) (t : Fin cfg1.N) (y : S4000x64.Idx) (i : S100000x64.Idx)
    (hi0 : (i 0).val = t.val * 4000 + (y 0).val) (hi1 : (i 1).val = (y 1).val) :
    (iblk1 V c 0 t : Vec Ideal S4000x64 .f32) y = (V c (Pipeline.arrRef spec1 0) : S100000x64.Idx → EReal) i := by
  obtain ⟨e0, e1, -⟩ := tileIndexB t
  unfold iblk1
  rw [View.read_apply]
  show V c (Pipeline.arrRef spec1 0) _ = V c (Pipeline.arrRef spec1 0) _
  congr 1
  funext a
  apply Fin.ext
  match a with
  | ⟨0, _⟩ => show win1_0.index t 0 * 4000 + 1 * (y 0).val = (i 0).val; rw [e0, hi0]; omega
  | ⟨1, _⟩ => show win1_0.index t 1 * 64 + 1 * (y 1).val = (i 1).val; rw [e1, hi1]; omega

/-- The scale window's block at point t holds rows t·4000 … of the scale column. -/
theorem blockB1 (c : Dev nD) (t : Fin cfg1.N) (y : S4000x1.Idx) (i : S100000x1.Idx)
    (hi0 : (i 0).val = t.val * 4000 + (y 0).val) :
    (iblk1 V c 1 t : Vec Ideal S4000x1 .f32) y = (V c (Pipeline.arrRef spec1 1) : S100000x1.Idx → EReal) i := by
  obtain ⟨-, -, e0, e1, -⟩ := tileIndexB t
  unfold iblk1
  rw [View.read_apply]
  show V c (Pipeline.arrRef spec1 1) _ = V c (Pipeline.arrRef spec1 1) _
  congr 1
  funext a
  apply Fin.ext
  match a with
  | ⟨0, _⟩ => show win1_1.index t 0 * 4000 + 1 * (y 0).val = (i 0).val; rw [e0, hi0]; omega
  | ⟨1, _⟩ =>
    show win1_1.index t 1 * 1 + 1 * (y 1).val = (i 1).val
    have h1 : (y 1).val < 1 := (y 1).isLt
    have h2 : (i 1).val < 1 := (i 1).isLt
    rw [e1]; omega

/-- The bias window's block at every point is the whole bias row. -/
theorem blockB2 (c : Dev nD) (t : Fin cfg1.N) :
    (iblk1 V c 2 t : Vec Ideal S1x64 .f32) = (V c (Pipeline.arrRef spec1 2) : S1x64.Idx → EReal) := by
  obtain ⟨-, -, -, -, e0, e1, -⟩ := tileIndexB t
  funext y
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- The weight window's block at every point is the whole weight array. -/
theorem blockB3 (c : Dev nD) (t : Fin cfg1.N) :
    (iblk1 V c 3 t : Vec Ideal S64x32 .f32) = (V c (Pipeline.arrRef spec1 3) : S64x32.Idx → EReal) := by
  obtain ⟨-, -, -, -, -, -, e0, e1, -⟩ := tileIndexB t
  funext y
  unfold iblk1
  rw [View.read_apply]
  show V c (Pipeline.arrRef spec1 3) _ = V c (Pipeline.arrRef spec1 3) _
  congr 1
  funext a
  apply Fin.ext
  match a with
  | ⟨0, _⟩ => show win1_3.index t 0 * 64 + 1 * (y 0).val = (y 0).val; rw [e0]; omega
  | ⟨1, _⟩ => show win1_3.index t 1 * 32 + 1 * (y 1).val = (y 1).val; rw [e1]; omega

/-- What point t writes back is rows t·4000 … of the whole-array result. -/
theorem flushedB_eq (c : Dev nD) (t : Fin cfg1.N) :
    (dat1 V c).flushed 4 t = ((cfg1.win 4).blk t).view.read (Elt Ideal)
      (hiddenScaled (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zeroOffsets]
  simp only [View.ld_unit_zero (S := S4000x64) zeroOffsets, View.ld_unit_zero (S := S4000x1) zeroOffsets,
    View.ld_unit_zero (S := S1x64) zeroOffsets, View.ld_unit_zero (S := S64x32) zeroOffsets]
  obtain ⟨-, -, -, -, -, -, -, -, e0, e1⟩ := tileIndexB t
  funext j
  refine tileB_at (iblk1 V c 0 t) (iblk1 V c 1 t) (iblk1 V c 2 t) (iblk1 V c 3 t) (iblk1 V c 1 t) _ _ _ _ t.val
    (fun y i h0 h1 => blockB0 V c t y i h0 h1) (fun y i h0 => blockB1 V c t y i h0) (blockB2 V c t) (blockB3 V c t)
    (fun y i h0 => blockB1 V c t y i h0) _ _ ?_ ?_
  · show win1_4.index t 0 * 4000 + 1 * (j 0).val = t.val * 4000 + (j 0).val; rw [e0]; omega
  · show win1_4.index t 1 * 32 + 1 * (j 1).val = (j 1).val; rw [e1]; omega

/-- An index of the result array is in point t's block iff each coordinate is in the block's range on its axis. -/
theorem mem_blockB (t : Fin cfg1.N) (i : S100000x32.Idx) :
    i ∈ ((cfg1.win 4).blk t).view.set ↔ ∀ a : Fin 2, win1_4.index t a * S4000x32.size a ≤ (i a).val
      ∧ (i a).val < win1_4.index t a * S4000x32.size a + S4000x32.size a := by
  show i ∈ ((View.whole main_v46).slice (win1_4.rect t)).set ↔ _
  rw [View.set_slice_whole, Rect.mem_set_unit]
  exact Iff.rfl

/-- Row r of the result array is in the block of point r / 4000. -/
theorem coverB (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, e0, e1⟩ := tileIndexB t
  refine ⟨t, flush1_4 t, ?_⟩
  rw [mem_blockB]
  intro a
  match a with
  | ⟨0, _⟩ =>
    show win1_4.index t 0 * 4000 ≤ (i 0).val ∧ (i 0).val < win1_4.index t 0 * 4000 + 4000
    rw [e0, ht]; omega
  | ⟨1, _⟩ =>
    show win1_4.index t 1 * 32 ≤ (i 1).val ∧ (i 1).val < win1_4.index t 1 * 32 + 32
    rw [e1]; omega

/-- The second region's result array after its 25 points, as one function of the arrays it found. -/
theorem regionB_array (c : Dev nD) :
    (dat1 V c).arrAt 4 cfg1.N
      = hiddenScaled (V c (Pipeline.arrRef spec1 0)) (V c (Pipeline.arrRef spec1 1)) (V c (Pipeline.arrRef spec1 2))
          (V c (Pipeline.arrRef spec1 3)) :=
  (dat1 V c).arrAt_eq_of_cover 4 _ (fun t _ => flushedB_eq V c t) coverB

/-- Entry (p, q) of it: row p of the aggregate, scaled, biased and rectified, times column q of the weights, times
    the row's scale. -/
theorem regionB_final (c : Dev nD) (a0 : S100000x64.Idx → EReal) (a1 : S100000x1.Idx → EReal)
    (a2 : S1x64.Idx → EReal) (a3 : S64x32.Idx → EReal)
    (h0 : V c (Pipeline.arrRef spec1 0) = a0) (h1 : V c (Pipeline.arrRef spec1 1) = a1)
    (h2 : V c (Pipeline.arrRef spec1 2) = a2) (h3 : V c (Pipeline.arrRef spec1 3) = a3)
    (p : Fin 100000) (q : Fin 32) :
    (dat1 V c).arrAt 4 cfg1.N (ix2 p q)
      = (∑ k : Fin 64, max (a0 (ix2 p k) * a1 (ix2 p (0 : Fin 1)) + a2 (ix2 (0 : Fin 1) k)) 0 * a3 (ix2 k q))
          * a1 (ix2 p (0 : Fin 1)) := by
  subst h0 h1 h2 h3
  rw [regionB_array]
  rfl

end Cert.KernelIdeal.RegionB

end
-- ==== Proof.RegionC.lean ====
/-
  The third region as a whole-array function.

  The region cuts the aggregate array [100000, 32] and the scale column [100000, 1] into 25 row blocks of 4000 rows,
  keeps the bias rows [1, 32], [1, 16], [1, 1] and the weight matrices [32, 16], [16, 1] whole, and at grid point t
  writes rows 4000·t … of its result column: each row of the aggregate block times the row's scale, plus the bias,
  rectified; through the first dense layer (weights, bias, rectifier); through the second (weights, bias). So row p
  of the result column after the 25 points is
  (∑ j < 16, max ((∑ k < 32, max (s2 (p, k) · d (p, 0) + b2 (0, k)) 0 · wf1 (k, j)) + bf1 (0, j)) 0 · wf2 (j, 0))
  + bf2 (0, 0).

  Steps: the tile's payload at an entry (`tileC_apply`); the same with each block read as its rows of the arrays
  (`tileC_at`); the printed index maps over the grid (`tileIndexC`); each window's block as rows of its array
  (`blockC0` … `blockC6`); what a point writes back (`flushedC_eq`); every row is covered by the point row / 4000
  (`coverC`); the array after the run (`regionC_array`, `regionC_final`).
-/
import proofs.«145530_j23407571763485_2_alg».proof.Proof.Gen.KernelIdeal.Frame
import proofs.«145530_j23407571763485_2_alg».proof.Proof.LibGcnTile
import proofs.«145530_j23407571763485_2_alg».proof.Proof.LibAffineLayer
import proofs.«145530_j23407571763485_2_alg».proof.Proof.LibMatmul2
import Idealize.ShloMosaic.Lib.Pipeline.Value
import Idealize.ShloMosaic.Lib.ValueLayout
import Idealize.ShloMosaic.Lib.ValueIdx

noncomputable section

namespace Cert.KernelIdeal.RegionC

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOffsets : (![0, 0] : Fin 2 → Nat) = fun _ => 0 := funext fun a => by fin_cases a <;> rfl

/-- The printed dimension numbers of the third region's two products are the plain ones. -/
theorem dotC1_eq : dot_S4000x32_S32x16_S4000x16_1_0_0_1_n_n
    = Cert.Lib.plain2 dot_S4000x32_S32x16_S4000x16_1_0_0_1_n_n_wf := rfl
theorem dotC2_eq : dot_S4000x16_S16x1_S4000x1_1_0_0_1_n_n
    = Cert.Lib.plain2 dot_S4000x16_S16x1_S4000x1_1_0_0_1_n_n_wf := rfl

/-- Row p of the score column: row p of the aggregate, scaled, biased and rectified, through the first dense layer
    (weights, bias, rectifier) and the second (weights, bias). -/
def scoreAt (a0 : S100000x32.Idx → EReal) (a1 : S100000x1.Idx → EReal) (a2 : S1x32.Idx → EReal)
    (a3 : S32x16.Idx → EReal) (a4 : S1x16.Idx → EReal) (a5 : S16x1.Idx → EReal) (a6 : S1x1.Idx → EReal)
    (p : Fin 100000) : EReal :=
  (∑ j : Fin 16, max ((∑ k : Fin 32, max (a0 (ix2 p k) * a1 (ix2 p (0 : Fin 1)) + a2 (ix2 (0 : Fin 1) k)) 0
        * a3 (ix2 k j)) + a4 (ix2 (0 : Fin 1) j)) 0 * a5 (ix2 j (0 : Fin 1)))
    + a6 (ix2 (0 : Fin 1) (0 : Fin 1))

/-- The whole column of them. -/
def score (a0 : S100000x32.Idx → EReal) (a1 : S100000x1.Idx → EReal) (a2 : S1x32.Idx → EReal)
    (a3 : S32x16.Idx → EReal) (a4 : S1x16.Idx → EReal) (a5 : S16x1.Idx → EReal) (a6 : S1x1.Idx → EReal) :
    S100000x1.Idx → EReal := fun i => scoreAt a0 a1 a2 a3 a4 a5 a6 (i 0)

/-- One row tile of the third region at entry (p, 0). -/
theorem tileC_apply (x0 : Vec Ideal S4000x32 .f32) (x1 : Vec Ideal S4000x1 .f32) (x2 : Vec Ideal S1x32 .f32)
    (x3 : Vec Ideal S32x16 .f32) (x4 : Vec Ideal S1x16 .f32) (x5 : Vec Ideal S16x1 .f32) (x6 : Vec Ideal S1x1 .f32)
    (p : Fin 4000) (q : Fin 1) :
    k2_pay1 (F := Ideal) x0 x1 x2 x3 x4 x5 x6 (ix2 p q)
      = (∑ j : Fin 16, max ((∑ k : Fin 32, max (x0 (ix2 p k) * x1 (ix2 p (0 : Fin 1)) + x2 (ix2 (0 : Fin 1) k)) 0
            * x3 (ix2 k j)) + x4 (ix2 (0 : Fin 1) j)) 0 * x5 (ix2 j q))
          + x6 (ix2 (0 : Fin 1) q) := by
  unfold k2_pay1
  simp only [shapeCast_self]
  rw [addf_apply, broadcastTo_1b_ab_apply, dotC2_eq, Cert.Lib.matmul2_zero_apply]
  refine congrArg (· + _) (Finset.sum_congr rfl fun j _ => ?_)
  rw [truncf_apply, truncf_apply, maximumf_apply, addf_apply, broadcastTo_1b_ab_apply, broadcast_apply, dotC1_eq,
    Cert.Lib.matmul2_zero_apply]
  show max (_ + _) (Ideal.ofBits .f32 0x00000000#32) * _ = _
  rw [Ideal.ofBits_zero_f32]
  refine congrArg (fun s => max (s + _) 0 * _) (Finset.sum_congr rfl fun k _ => ?_)
  rw [truncf_apply, truncf_apply, maximumf_apply, addf_apply, mulf_apply, Cert.Lib.broadcastTo_a1_ab_apply,
    broadcastTo_1b_ab_apply, broadcast_apply]
  show max _ (Ideal.ofBits .f32 0x00000000#32) * _ = _
  rw [Ideal.ofBits_zero_f32]

/-- A row tile whose blocks are rows T·4000 … of the arrays is that row range of the whole-array result. -/
theorem tileC_at (x0 : Vec Ideal S4000x32 .f32) (x1 : Vec Ideal S4000x1 .f32) (x2 : Vec Ideal S1x32 .f32)
    (x3 : Vec Ideal S32x16 .f32) (x4 : Vec Ideal S1x16 .f32) (x5 : Vec Ideal S16x1 .f32) (x6 : Vec Ideal S1x1 .f32)
    (a0 : S100000x32.Idx → EReal) (a1 : S100000x1.Idx → EReal) (a2 : S1x32.Idx → EReal)
    (a3 : S32x16.Idx → EReal) (a4 : S1x16.Idx → EReal) (a5 : S16x1.Idx → EReal) (a6 : S1x1.Idx → EReal) (T : Nat)
    (h0 : ∀ (y : S4000x32.Idx) (i : S100000x32.Idx), (i 0).val = T * 4000 + (y 0).val → (i 1).val = (y 1).val → x0 y = a0 i)
    (h1 : ∀ (y : S4000x1.Idx) (i : S100000x1.Idx), (i 0).val = T * 4000 + (y 0).val → x1 y = a1 i)
    (h2 : x2 = a2) (h3 : x3 = a3) (h4 : x4 = a4) (h5 : x5 = a5) (h6 : x6 = a6)
    (y : S4000x1.Idx) (i : S100000x1.Idx) (hi0 : (i 0).val = T * 4000 + (y 0).val) :
    k2_pay1 (F := Ideal) x0 x1 x2 x3 x4 x5 x6 y = score a0 a1 a2 a3 a4 a5 a6 i := by
  obtain ⟨p, q, rfl⟩ : ∃ (p : Fin 4000) (q : Fin 1), y = ix2 p q := ⟨y 0, y 1, eq_ix2 y⟩
  obtain ⟨P, Q, rfl⟩ : ∃ (P : Fin 100000) (Q : Fin 1), i = ix2 P Q := ⟨i 0, i 1, eq_ix2 i⟩
  have hP : P.val = T * 4000 + p.val := hi0
  obtain rfl : q = 0 := Fin.ext (by have := q.isLt; omega)
  rw [tileC_apply]
  show _ = (∑ j : Fin 16, max ((∑ k : Fin 32, max (a0 (ix2 P k) * a1 (ix2 P (0 : Fin 1)) + a2 (ix2 (0 : Fin 1) k)) 0
        * a3 (ix2 k j)) + a4 (ix2 (0 : Fin 1) j)) 0 * a5 (ix2 j (0 : Fin 1)))
    + a6 (ix2 (0 : Fin 1) (0 : Fin 1))
  subst h2 h3 h4 h5 h6
  rw [h1 (ix2 p (0 : Fin 1)) (ix2 P (0 : Fin 1)) hP]
  refine congrArg (· + _) (Finset.sum_congr rfl fun j _ => ?_)
  refine congrArg (fun s => max (s + _) 0 * _) (Finset.sum_congr rfl fun k _ => ?_)
  rw [h0 (ix2 p k) (ix2 P k) hP rfl]

/-- The printed index maps over the grid, window by window: the row-tiled windows (0, 1 and 7) sit at row block t,
    the small arrays at block (0, 0). -/
theorem tileIndexC : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The aggregate window's block at point t holds rows t·4000 … of the aggregate array. -/
theorem blockC0 (c : Dev nD) (t : Fin cfg2.N) (y : S4000x32.Idx) (i : S100000x32.Idx)
    (hi0 : (i 0).val = t.val * 4000 + (y 0).val) (hi1 : (i 1).val = (y 1).val) :
    (iblk2 V c 0 t : Vec Ideal S4000x32 .f32) y = (V c (Pipeline.arrRef spec2 0) : S100000x32.Idx → EReal) i := by
  obtain ⟨e0, e1⟩ := (tileIndexC t).1
  unfold iblk2
  rw [View.read_apply]
  show V c (Pipeline.arrRef spec2 0) _ = V c (Pipeline.arrRef spec2 0) _
  congr 1
  funext a
  apply Fin.ext
  match a with
  | ⟨0, _⟩ => show win2_0.index t 0 * 4000 + 1 * (y 0).val = (i 0).val; rw [e0, hi0]; omega
  | ⟨1, _⟩ => show win2_0.index t 1 * 32 + 1 * (y 1).val = (i 1).val; rw [e1, hi1]; omega

/-- The scale window's block at point t holds rows t·4000 … of the scale column. -/
theorem blockC1 (c : Dev nD) (t : Fin cfg2.N) (y : S4000x1.Idx) (i : S100000x1.Idx)
    (hi0 : (i 0).val = t.val * 4000 + (y 0).val) :
    (iblk2 V c 1 t : Vec Ideal S4000x1 .f32) y = (V c (Pipeline.arrRef spec2 1) : S100000x1.Idx → EReal) i := by
  obtain ⟨e0, e1⟩ := (tileIndexC t).2.1
  unfold iblk2
  rw [View.read_apply]
  show V c (Pipeline.arrRef spec2 1) _ = V c (Pipeline.arrRef spec2 1) _
  congr 1
  funext a
  apply Fin.ext
  match a with
  | ⟨0, _⟩ => show win2_1.index t 0 * 4000 + 1 * (y 0).val = (i 0).val; rw [e0, hi0]; omega
  | ⟨1, _⟩ =>
    show win2_1.index t 1 * 1 + 1 * (y 1).val = (i 1).val
    have h1 : (y 1).val < 1 := (y 1).isLt
    have h2 : (i 1).val < 1 := (i 1).isLt
    rw [e1]; omega

/-- The first bias window's block at every point is the whole bias row. -/
theorem blockC2 (c : Dev nD) (t : Fin cfg2.N) :
    (iblk2 V c 2 t : Vec Ideal S1x32 .f32) = (V c (Pipeline.arrRef spec2 2) : S1x32.Idx → EReal) := by
  obtain ⟨e0, e1⟩ := (tileIndexC t).2.2.1
  funext y
  unfold iblk2
  rw [View.read_apply]
  show V c (Pipeline.arrRef spec2 2) _ = V c (Pipeline.arrRef spec2 2) _
  congr 1
  funext a
  apply Fin.ext
  match a with
  | ⟨0, _⟩ => show win2_2.index t 0 * 1 + 1 * (y 0).val = (y 0).val; rw [e0]; omega
  | ⟨1, _⟩ => show win2_2.index t 1 * 32 + 1 * (y 1).val = (y 1).val; rw [e1]; omega

/-- The first weight window's block at every point is the whole weight array. -/
theorem blockC3 (c : Dev nD) (t : Fin cfg2.N) :
    (iblk2 V c 3 t : Vec Ideal S32x16 .f32) = (V c (Pipeline.arrRef spec2 3) : S32x16.Idx → EReal) := by
  obtain ⟨e0, e1⟩ := (tileIndexC t).2.2.2.1
  funext y
  unfold iblk2
  rw [View.read_apply]
  show V c (Pipeline.arrRef spec2 3) _ = V c (Pipeline.arrRef spec2 3) _
  congr 1
  funext a
  apply Fin.ext
  match a with
  | ⟨0, _⟩ => show win2_3.index t 0 * 32 + 1 * (y 0).val = (y 0).val; rw [e0]; omega
  | ⟨1, _⟩ => show win2_3.index t 1 * 16 + 1 * (y 1).val = (y 1).val; rw [e1]; omega

/-- The second bias window's block at every point is the whole bias row. -/
theorem blockC4 (c : Dev nD) (t : Fin cfg2.N) :
    (iblk2 V c 4 t : Vec Ideal S1x16 .f32) = (V c (Pipeline.arrRef spec2 4) : S1x16.Idx → EReal) := by
  obtain ⟨e0, e1⟩ := (tileIndexC t).2.2.2.2.1
  funext y
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (y 0).val = (y 0).val; rw [e0]; omega
  | ⟨1, _⟩ => show win2_4.index t 1 * 16 + 1 * (y 1).val = (y 1).val; rw [e1]; omega

/-- The second weight window's block at every point is the whole weight column. -/
theorem blockC5 (c : Dev nD) (t : Fin cfg2.N) :
    (iblk2 V c 5 t : Vec Ideal S16x1 .f32) = (V c (Pipeline.arrRef spec2 5) : S16x1.Idx → EReal) := by
  obtain ⟨e0, e1⟩ := (tileIndexC t).2.2.2.2.2.1
  funext y
  unfold iblk2
  rw [View.read_apply]
  show V c (Pipeline.arrRef spec2 5) _ = V c (Pipeline.arrRef spec2 5) _
  congr 1
  funext a
  apply Fin.ext
  match a with
  | ⟨0, _⟩ => show win2_5.index t 0 * 16 + 1 * (y 0).val = (y 0).val; rw [e0]; omega
  | ⟨1, _⟩ => show win2_5.index t 1 * 1 + 1 * (y 1).val = (y 1).val; rw [e1]; omega

/-- The last bias window's block at every point is the whole one-entry array. -/
theorem blockC6 (c : Dev nD) (t : Fin cfg2.N) :
    (iblk2 V c 6 t : Vec Ideal S1x1 .f32) = (V c (Pipeline.arrRef spec2 6) : S1x1.Idx → EReal) := by
  obtain ⟨e0, e1⟩ := (tileIndexC t).2.2.2.2.2.2.1
  funext y
  unfold iblk2
  rw [View.read_apply]
  show V c (Pipeline.arrRef spec2 6) _ = V c (Pipeline.arrRef spec2 6) _
  congr 1
  funext a
  apply Fin.ext
  match a with
  | ⟨0, _⟩ => show win2_6.index t 0 * 1 + 1 * (y 0).val = (y 0).val; rw [e0]; omega
  | ⟨1, _⟩ => show win2_6.index t 1 * 1 + 1 * (y 1).val = (y 1).val; rw [e1]; omega

/-- What point t writes back is rows t·4000 … of the whole-array result. -/
theorem flushedC_eq (c : Dev nD) (t : Fin cfg2.N) :
    (dat2 V c).flushed 7 t = ((cfg2.win 7).blk t).view.read (Elt Ideal)
      (score (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 7).cut (grid2.coords t) ((dat2 V c).after 7 t) = _
  rw [after2_7]
  unfold out2_7
  rw [View.canon_unit_zero zeroOffsets]
  simp only [View.ld_unit_zero (S := S4000x32) zeroOffsets, View.ld_unit_zero (S := S4000x1) zeroOffsets,
    View.ld_unit_zero (S := S1x32) zeroOffsets, View.ld_unit_zero (S := S32x16) zeroOffsets,
    View.ld_unit_zero (S := S1x16) zeroOffsets, View.ld_unit_zero (S := S16x1) zeroOffsets,
    View.ld_unit_zero (S := S1x1) zeroOffsets]
  obtain ⟨e0, e1⟩ := (tileIndexC t).2.2.2.2.2.2.2
  funext j
  refine tileC_at (iblk2 V c 0 t) (iblk2 V c 1 t) (iblk2 V c 2 t) (iblk2 V c 3 t) (iblk2 V c 4 t) (iblk2 V c 5 t)
    (iblk2 V c 6 t) _ _ _ _ _ _ _ t.val
    (fun y i h0 h1 => blockC0 V c t y i h0 h1) (fun y i h0 => blockC1 V c t y i h0) (blockC2 V c t) (blockC3 V c t)
    (blockC4 V c t) (blockC5 V c t) (blockC6 V c t) _ _ ?_
  show win2_7.index t 0 * 4000 + 1 * (j 0).val = t.val * 4000 + (j 0).val; rw [e0]; omega

/-- An index of the result array is in point t's block iff each coordinate is in the block's range on its axis. -/
theorem mem_blockC (t : Fin cfg2.N) (i : S100000x1.Idx) :
    i ∈ ((cfg2.win 7).blk t).view.set ↔ ∀ a : Fin 2, win2_7.index t a * S4000x1.size a ≤ (i a).val
      ∧ (i a).val < win2_7.index t a * S4000x1.size a + S4000x1.size a := by
  show i ∈ ((View.whole main_v61).slice (win2_7.rect t)).set ↔ _
  rw [View.set_slice_whole, Rect.mem_set_unit]
  exact Iff.rfl

/-- Row r of the result array is in the block of point r / 4000. -/
theorem coverC (i : S100000x1.Idx) :
    ∃ t : Fin cfg2.N, (cfg2.win 7).flush t = true ∧ i ∈ ((cfg2.win 7).blk t).view.set := by
  have hi0 : (i 0).val < 100000 := (i 0).isLt
  have hi1 : (i 1).val < 1 := (i 1).isLt
  obtain ⟨t, ht⟩ : ∃ t : Fin cfg2.N, t.val = (i 0).val / 4000 :=
    ⟨⟨(i 0).val / 4000, by rw [show cfg2.N = 25 from N_2]; omega⟩, rfl⟩
  obtain ⟨e0, e1⟩ := (tileIndexC t).2.2.2.2.2.2.2
  refine ⟨t, flush2_7 t, ?_⟩
  rw [mem_blockC]
  intro a
  match a with
  | ⟨0, _⟩ =>
    show win2_7.index t 0 * 4000 ≤ (i 0).val ∧ (i 0).val < win2_7.index t 0 * 4000 + 4000
    rw [e0, ht]; omega
  | ⟨1, _⟩ =>
    show win2_7.index t 1 * 1 ≤ (i 1).val ∧ (i 1).val < win2_7.index t 1 * 1 + 1
    rw [e1]; omega

/-- The third region's result array after its 25 points, as one function of the arrays it found. -/
theorem regionC_array (c : Dev nD) :
    (dat2 V c).arrAt 7 cfg2.N
      = score (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  (dat2 V c).arrAt_eq_of_cover 7 _ (fun t _ => flushedC_eq V c t) coverC

/-- Row p of it: row p of the aggregate, scaled, biased and rectified, through the two dense layers. -/
theorem regionC_final (c : Dev nD) (a0 : S100000x32.Idx → EReal) (a1 : S100000x1.Idx → EReal)
    (a2 : S1x32.Idx → EReal) (a3 : S32x16.Idx → EReal) (a4 : S1x16.Idx → EReal) (a5 : S16x1.Idx → EReal)
    (a6 : S1x1.Idx → EReal)
    (h0 : V c (Pipeline.arrRef spec2 0) = a0) (h1 : V c (Pipeline.arrRef spec2 1) = a1)
    (h2 : V c (Pipeline.arrRef spec2 2) = a2) (h3 : V c (Pipeline.arrRef spec2 3) = a3)
    (h4 : V c (Pipeline.arrRef spec2 4) = a4) (h5 : V c (Pipeline.arrRef spec2 5) = a5)
    (h6 : V c (Pipeline.arrRef spec2 6) = a6) (p : Fin 100000) :
    (dat2 V c).arrAt 7 cfg2.N (ix2 p (0 : Fin 1))
      = (∑ j : Fin 16, max ((∑ k : Fin 32, max (a0 (ix2 p k) * a1 (ix2 p (0 : Fin 1)) + a2 (ix2 (0 : Fin 1) k)) 0
            * a3 (ix2 k j)) + a4 (ix2 (0 : Fin 1) j)) 0 * a5 (ix2 j (0 : Fin 1)))
          + a6 (ix2 (0 : Fin 1) (0 : Fin 1)) := by
  subst h0 h1 h2 h3 h4 h5 h6
  rw [regionC_array]
  rfl

end Cert.KernelIdeal.RegionC

end
-- ==== Proof.Spec.lean ====
/-
  The two programs as formulas over the extended reals, with the graph kept abstract.

  A graph on `N` nodes with `E` edges is given by: for each node `p` the set `A p` of edges whose target is `p`, and for
  each edge `e` the source row `s e` and the target row `t e` that a gather reads. `d` is the per-node normalisation
  (the inverse square root of the degree). A graph convolution of node features `H` with bias `b` is, at node `p` and
  feature `q`, the sum over the edges into `p` of `H (s e) q` weighted by `d (s e) * d (t e)`, plus `b q`.

  `refOut` weights every edge by the product of the two factors. `kerOut` scales each node's transformed features by
  its own factor before the aggregation, aggregates over a re-ordered edge list (`A'`, `s'`), and applies the target's
  factor once after the aggregation.
-/
import Mathlib.Data.EReal.Inv
import Mathlib.Algebra.BigOperators.Fin

noncomputable section

open scoped BigOperators

namespace Cert.Spec

variable {N E K0 B1 B2 B3 : ℕ}

/-- One graph convolution as the reference computes it: every edge into `p` contributes the source's features times the
    product of the two normalisation factors; the sum starts from zero; the bias is added last. -/
def refConv {B : ℕ} (A : Fin N → Finset (Fin E)) (s t : Fin E → Fin N) (d : Fin N → EReal)
    (H : Fin N → Fin B → EReal) (b : Fin B → EReal) (p : Fin N) (q : Fin B) : EReal :=
  (0 + ∑ e ∈ A p, H (s e) q * (d (s e) * d (t e))) + b q

/-- The reference: two graph convolutions, each followed by `max · 0`, then a two-layer perceptron with one output. -/
def refOut (A : Fin N → Finset (Fin E)) (s t : Fin E → Fin N) (d : Fin N → EReal)
    (x : Fin N → Fin K0 → EReal) (w1 : Fin K0 → Fin B1 → EReal) (b1 : Fin B1 → EReal)
    (w2 : Fin B1 → Fin B2 → EReal) (b2 : Fin B2 → EReal) (wf1 : Fin B2 → Fin B3 → EReal) (bf1 : Fin B3 → EReal)
    (wf2 : Fin B3 → EReal) (bf2 : EReal) (p : Fin N) : EReal :=
  let H1 : Fin N → Fin B1 → EReal := fun r q => ∑ k, x r k * w1 k q
  let C1 := refConv A s t d H1 b1
  let H2 : Fin N → Fin B2 → EReal := fun r q => ∑ k, max (C1 r k) 0 * w2 k q
  let C2 := refConv A s t d H2 b2
  let H3 : Fin N → Fin B3 → EReal := fun r j => (∑ k, max (C2 r k) 0 * wf1 k j) + bf1 j
  (∑ j, max (H3 p j) 0 * wf2 j) + bf2

/-- The kernel: the first region scales the transformed features by the node's factor; the host aggregates them over
    the re-ordered edges; the second region applies the target's factor, the bias and `max · 0`, transforms and scales
    again; the host aggregates again; the third region finishes the second convolution and applies the perceptron. -/
def kerOut (A' : Fin N → Finset (Fin E)) (s' : Fin E → Fin N) (d : Fin N → EReal)
    (x : Fin N → Fin K0 → EReal) (w1 : Fin K0 → Fin B1 → EReal) (b1 : Fin B1 → EReal)
    (w2 : Fin B1 → Fin B2 → EReal) (b2 : Fin B2 → EReal) (wf1 : Fin B2 → Fin B3 → EReal) (bf1 : Fin B3 → EReal)
    (wf2 : Fin B3 → EReal) (bf2 : EReal) (p : Fin N) : EReal :=
  let O1 : Fin N → Fin B1 → EReal := fun r q => (∑ k, x r k * w1 k q) * d r
  let S1 : Fin N → Fin B1 → EReal := fun p q => 0 + ∑ e ∈ A' p, O1 (s' e) q
  let O2 : Fin N → Fin B2 → EReal := fun r q => (∑ k, max (S1 r k * d r + b1 k) 0 * w2 k q) * d r
  let S2 : Fin N → Fin B2 → EReal := fun p q => 0 + ∑ e ∈ A' p, O2 (s' e) q
  (∑ j, max ((∑ k, max (S2 p k * d p + b2 k) 0 * wf1 k j) + bf1 j) 0 * wf2 j) + bf2

end Cert.Spec

end
-- ==== Proof.KerStages.lean ====
/-
  The kernel formula from its stages. If five arrays are, entry by entry, the scaled transform of the inputs, its
  aggregation over the re-ordered edges, the second region's scaled transform of that, its aggregation, and the third
  region's value, then the last one is `kerOut`.
-/
import proofs.«145530_j23407571763485_2_alg».proof.Proof.Spec

noncomputable section

open scoped BigOperators

namespace Cert.Spec

variable {N E K0 B1 B2 B3 : ℕ}

theorem kerOut_of_stages (A' : Fin N → Finset (Fin E)) (s' : Fin E → Fin N) (d : Fin N → EReal)
    (x : Fin N → Fin K0 → EReal) (w1 : Fin K0 → Fin B1 → EReal) (b1 : Fin B1 → EReal)
    (w2 : Fin B1 → Fin B2 → EReal) (b2 : Fin B2 → EReal) (wf1 : Fin B2 → Fin B3 → EReal) (bf1 : Fin B3 → EReal)
    (wf2 : Fin B3 → EReal) (bf2 : EReal)
    (O1 S1 : Fin N → Fin B1 → EReal) (O2 S2 : Fin N → Fin B2 → EReal) (out : Fin N → EReal)
    (hO1 : ∀ r q, O1 r q = (∑ k, x r k * w1 k q) * d r)
    (hS1 : ∀ p q, S1 p q = 0 + ∑ e ∈ A' p, O1 (s' e) q)
    (hO2 : ∀ r q, O2 r q = (∑ k, max (S1 r k * d r + b1 k) 0 * w2 k q) * d r)
    (hS2 : ∀ p q, S2 p q = 0 + ∑ e ∈ A' p, O2 (s' e) q)
    (hout : ∀ p, out p = (∑ j, max ((∑ k, max (S2 p k * d p + b2 k) 0 * wf1 k j) + bf1 j) 0 * wf2 j) + bf2)
    (p : Fin N) : out p = kerOut A' s' d x w1 b1 w2 b2 wf1 bf1 wf2 bf2 p := by
  obtain rfl : O1 = fun r q => (∑ k, x r k * w1 k q) * d r := funext fun r => funext fun q => hO1 r q
  obtain rfl : S1 = fun p q => 0 + ∑ e ∈ A' p, (∑ k, x (s' e) k * w1 k q) * d (s' e) :=
    funext fun p => funext fun q => hS1 p q
  obtain rfl : O2 = _ := funext fun r => funext fun q => hO2 r q
  obtain rfl : S2 = _ := funext fun p => funext fun q => hS2 p q
  rw [hout p]
  rfl

end Cert.Spec

end
-- ==== Proof.KernelValue.lean ====
/-
  The idealized kernel program's result, entry by entry, as the kernel formula `Cert.Spec.kerOut` of the launch
  contents: the three regions' arrays (each a whole-array function of the arrays the region found), the two host
  aggregations between them over the sorted edge lists, the normalisation column and the bias rows.
-/
import proofs.«145530_j23407571763485_2_alg».proof.Proof.KernelIndex
import proofs.«145530_j23407571763485_2_alg».proof.Proof.KernelStages
import proofs.«145530_j23407571763485_2_alg».proof.Proof.RegionA
import proofs.«145530_j23407571763485_2_alg».proof.Proof.RegionB
import proofs.«145530_j23407571763485_2_alg».proof.Proof.RegionC
import proofs.«145530_j23407571763485_2_alg».proof.Proof.KerStages

set_option maxRecDepth 16384

noncomputable section

namespace Cert.KSide

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

open Cert.Lib Cert.Spec

/-! ## The arrays, each at its own type: extended reals over a literal index set -/

def aX0 : S100000x256.Idx → EReal := m ((c : Thread nD τ).loc main_arg0)
def aX2 : S256x64.Idx → EReal := m ((c : Thread nD τ).loc main_arg2)
def aX3 : S64.Idx → EReal := m ((c : Thread nD τ).loc main_arg3)
def aX4 : S64x32.Idx → EReal := m ((c : Thread nD τ).loc main_arg4)
def aX5 : S32.Idx → EReal := m ((c : Thread nD τ).loc main_arg5)
def aX6 : S32x16.Idx → EReal := m ((c : Thread nD τ).loc main_arg6)
def aX7 : S16.Idx → EReal := m ((c : Thread nD τ).loc main_arg7)
def aX8 : S16x1.Idx → EReal := m ((c : Thread nD τ).loc main_arg8)
def aX9 : S1.Idx → EReal := m ((c : Thread nD τ).loc main_arg9)
def aD : S100000.Idx → EReal := W5 (F := Ideal) m ρ c (Proc.devRef .tc main_v16)
def aCol5 : S100000x1.Idx → EReal := W5 (F := Ideal) m ρ c (Proc.devRef .tc main_v17)
def aCol7 : S100000x1.Idx → EReal := W7 (F := Ideal) m ρ c (Proc.devRef .tc main_v17)
def aCol9 : S100000x1.Idx → EReal := W9 (F := Ideal) m ρ c (Proc.devRef .tc main_v17)
def aB1 : S1x64.Idx → EReal := W7 (F := Ideal) m ρ c (Proc.devRef .tc main_v45)
def aB2 : S1x32.Idx → EReal := W9 (F := Ideal) m ρ c (Proc.devRef .tc main_v58)
def aB3 : S1x16.Idx → EReal := W9 (F := Ideal) m ρ c (Proc.devRef .tc main_v59)
def aB4 : S1x1.Idx → EReal := W9 (F := Ideal) m ρ c (Proc.devRef .tc main_v60)
def aO1 : S100000x64.Idx → EReal := W6 (F := Ideal) m ρ c (Proc.devRef .tc main_v33)
def aS1 : S100000x64.Idx → EReal := W7 (F := Ideal) m ρ c (Proc.devRef .tc main_v44)
def aO2 : S100000x32.Idx → EReal := W8 (F := Ideal) m ρ c (Proc.devRef .tc main_v46)
def aS2 : S100000x32.Idx → EReal := W9 (F := Ideal) m ρ c (Proc.devRef .tc main_v57)
def aOutCol : S100000x1.Idx → EReal := W10 (F := Ideal) m ρ c (Proc.devRef .tc main_v61)
def aOut : S100000.Idx → EReal := W11 (F := Ideal) m ρ c (Proc.devRef .tc main_v62)

/-! ## The graph as the kernel program sees it -/

/-- The sorted source words and target words. -/
def srcS : IVec S1700000 32 := W5 (F := Ideal) m ρ c (Proc.devRef .tc main_v25)
def dstS : IVec S1700000 32 := W5 (F := Ideal) m ρ c (Proc.devRef .tc main_v32)

/-- The normalisation factor of node `r`. -/
def dK (r : Fin 100000) : EReal := aD m ρ c (ix1 r)

/-- The sorted edges whose target word, read signed, is node `p`. -/
def intoK (p : Fin 100000) : Finset (Fin 1700000) :=
  Finset.univ.filter (fun e : Fin 1700000 => row? 100000 (dstS m ρ c (ix1 e)) = some p)

/-- The row a gather reads for sorted edge `e`'s source. -/
def gsK (e : Fin 1700000) : Fin 100000 := clampRow 100000 (by decide) (nrmWord 100000#32 (srcS m ρ c (ix1 e)))

/-! ## The small arrays at an index -/

theorem col5_apply (r : Fin 100000) : aCol5 m ρ c (ix2 r (0 : Fin 1)) = dK m ρ c r := dcol5 m ρ c r
theorem col7_apply (r : Fin 100000) : aCol7 m ρ c (ix2 r (0 : Fin 1)) = dK m ρ c r := dcol7 m ρ c r
theorem col9_apply (r : Fin 100000) : aCol9 m ρ c (ix2 r (0 : Fin 1)) = dK m ρ c r := dcol9 m ρ c r
theorem b1_apply (k : Fin 64) : aB1 m ρ c (ix2 (0 : Fin 1) k) = aX3 m c (ix1 k) := brow7 m ρ c k
theorem b2_apply (k : Fin 32) : aB2 m ρ c (ix2 (0 : Fin 1) k) = aX5 m c (ix1 k) := brow9_58 m ρ c k
theorem b3_apply (j : Fin 16) : aB3 m ρ c (ix2 (0 : Fin 1) j) = aX7 m c (ix1 j) := brow9_59 m ρ c j
theorem b4_apply : aB4 m ρ c (ix2 (0 : Fin 1) (0 : Fin 1)) = aX9 m c (ix1 (0 : Fin 1)) := brow9_60 m ρ c
theorem outCol_apply (p : Fin 100000) : aOut m ρ c (ix1 p) = aOutCol m ρ c (ix2 p (0 : Fin 1)) := out_apply m ρ c p

/-! ## The five stages -/

/-- The first region's array: the transformed features scaled by the node's factor. -/
theorem stage_O1 (r : Fin 100000) (q : Fin 64) :
    aO1 m ρ c (ix2 r q) = (∑ k : Fin 256, aX0 m c (ix2 r k) * aX2 m c (ix2 k q)) * dK m ρ c r := by
  have h := Cert.KernelIdeal.RegionA.regionA_final (V5 m ρ) c (aX0 m c) (aX2 m c) (aCol5 m ρ c)
    (w5_main_arg0 m ρ c) (w5_main_arg2 m ρ c) rfl r q
  rw [col5_apply m ρ c r] at h
  exact (congrFun (W6_arr m ρ c 3) (ix2 r q)).trans h

/-- The first aggregation. -/
theorem stage_S1 (p : Fin 100000) (q : Fin 64) :
    aS1 m ρ c (ix2 p q) = 0 + ∑ e ∈ intoK m ρ c p, aO1 m ρ c (ix2 (gsK m ρ c e) q) := by
  refine Eq.trans ?_ (agg64_apply (aO1 m ρ c) (srcS m ρ c) (dstS m ρ c) p q)
  refine congrFun ((t7_main_v44 m ρ c).trans ?_) (ix2 p q)
  rw [srcS6 m ρ c, dstS6 m ρ c]
  rfl

/-- The second region's array. -/
theorem stage_O2 (r : Fin 100000) (q : Fin 32) :
    aO2 m ρ c (ix2 r q)
      = (∑ k : Fin 64, max (aS1 m ρ c (ix2 r k) * dK m ρ c r + aX3 m c (ix1 k)) 0 * aX4 m c (ix2 k q)) * dK m ρ c r := by
  have h := Cert.KernelIdeal.RegionB.regionB_final (V7 m ρ) c (aS1 m ρ c) (aCol7 m ρ c) (aB1 m ρ c) (aX4 m c)
    rfl rfl rfl (wmat7 m ρ c) r q
  rw [col7_apply m ρ c r] at h
  refine ((congrFun (W8_arr m ρ c 4) (ix2 r q)).trans h).trans ?_
  refine congrArg (fun z : EReal => z * dK m ρ c r) (Finset.sum_congr rfl fun k _ => ?_)
  rw [b1_apply m ρ c k]

/-- The second aggregation. -/
theorem stage_S2 (p : Fin 100000) (q : Fin 32) :
    aS2 m ρ c (ix2 p q) = 0 + ∑ e ∈ intoK m ρ c p, aO2 m ρ c (ix2 (gsK m ρ c e) q) := by
  refine Eq.trans ?_ (agg32_apply (aO2 m ρ c) (srcS m ρ c) (dstS m ρ c) p q)
  refine congrFun ((t9_main_v57 m ρ c).trans ?_) (ix2 p q)
  rw [srcS8 m ρ c, dstS8 m ρ c]
  rfl

/-- The third region's array, reshaped: the result. -/
theorem stage_out (p : Fin 100000) :
    aOut m ρ c (ix1 p)
      = (∑ j : Fin 16, max ((∑ k : Fin 32, max (aS2 m ρ c (ix2 p k) * dK m ρ c p + aX5 m c (ix1 k)) 0
            * aX6 m c (ix2 k j)) + aX7 m c (ix1 j)) 0 * aX8 m c (ix2 j (0 : Fin 1)))
          + aX9 m c (ix1 (0 : Fin 1)) := by
  have h := Cert.KernelIdeal.RegionC.regionC_final (V9 m ρ) c (aS2 m ρ c) (aCol9 m ρ c) (aB2 m ρ c) (aX6 m c)
    (aB3 m ρ c) (aX8 m c) (aB4 m ρ c) rfl rfl rfl (wmat9_6 m ρ c) rfl (wmat9_8 m ρ c) rfl p
  rw [col9_apply m ρ c p, b4_apply m ρ c] at h
  refine ((outCol_apply m ρ c p).trans ((congrFun (W10_arr m ρ c 7) (ix2 p (0 : Fin 1))).trans h)).trans ?_
  refine congrArg (fun z : EReal => z + aX9 m c (ix1 (0 : Fin 1))) (Finset.sum_congr rfl fun j _ => ?_)
  rw [b3_apply m ρ c j]
  refine congrArg (fun z : EReal => max (z + aX7 m c (ix1 j)) 0 * aX8 m c (ix2 j (0 : Fin 1)))
    (Finset.sum_congr rfl fun k _ => ?_)
  rw [b2_apply m ρ c k]

/-! ## The kernel formula -/

/-- The result at node `p` is the kernel formula of the launch contents, over the sorted edges. -/
theorem kernel_value (p : Fin 100000) :
    aOut m ρ c (ix1 p)
      = kerOut (intoK m ρ c) (gsK m ρ c) (dK m ρ c)
          (fun r k => aX0 m c (ix2 r k)) (fun k q => aX2 m c (ix2 k q))
          (fun q => aX3 m c (ix1 q)) (fun k q => aX4 m c (ix2 k q))
          (fun q => aX5 m c (ix1 q)) (fun k j => aX6 m c (ix2 k j))
          (fun j => aX7 m c (ix1 j)) (fun j => aX8 m c (ix2 j (0 : Fin 1)))
          (aX9 m c (ix1 (0 : Fin 1))) p :=
  kerOut_of_stages (intoK m ρ c) (gsK m ρ c) (dK m ρ c) _ _ _ _ _ _ _ _ _
    (fun r q => aO1 m ρ c (ix2 r q)) (fun p q => aS1 m ρ c (ix2 p q))
    (fun r q => aO2 m ρ c (ix2 r q)) (fun p q => aS2 m ρ c (ix2 p q))
    (fun p => aOut m ρ c (ix1 p))
    (stage_O1 m ρ c) (stage_S1 m ρ c) (stage_O2 m ρ c) (stage_S2 m ρ c) (stage_out m ρ c) p

end Cert.KSide

end
-- ==== Proof.KernelRefNames.lean ====
/-
  The edge lists and the normalisation vector are the same operations of the edge-index argument in both programs:
  the kernel program's buffers holding them, at the first region's entry, are the reference's stages of that argument.
  Stated for any float instance: the operations are not opened.
-/
import proofs.«145530_j23407571763485_2_alg».proof.Proof.Gen.KernelIdeal.Frame
import proofs.«145530_j23407571763485_2_alg».proof.Proof.RefRead

set_option maxRecDepth 16384

noncomputable section

namespace Cert.KSide

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 40000000 in
/-- The source list: the first row of the edge index followed by the self-loops. -/
theorem srcK : W5 (F := F) m ρ c (Proc.devRef .tc main_v3)
    = Cert.ReferenceIdeal.Read.val_main_v3 (F := F) (m ((c : Thread nD τ).loc main_arg1)) := by
  dsimp only [W5, W4, W3, W2, W1]
  after_results_simp <;> rfl

set_option maxHeartbeats 40000000 in
/-- The target list: the second row of the edge index followed by the self-loops. -/
theorem dstK : W5 (F := F) m ρ c (Proc.devRef .tc main_v6)
    = Cert.ReferenceIdeal.Read.val_main_v6 (F := F) (m ((c : Thread nD τ).loc main_arg1)) := by
  dsimp only [W5, W4, W3, W2, W1]
  after_results_simp <;> rfl

set_option maxHeartbeats 40000000 in
/-- The normalisation vector: the inverse square root of the degree where the degree is positive, zero elsewhere. -/
theorem dinvK : W5 (F := F) m ρ c (Proc.devRef .tc main_v16)
    = Cert.ReferenceIdeal.Read.val_main_v16 (F := F) (m ((c : Thread nD τ).loc main_arg1)) := by
  dsimp only [W5, W4, W3, W2, W1]
  after_results_simp <;> rfl

end Cert.KSide

end
-- ==== Proof.RefValue.lean ====
/-
  The reference at an index. The reference is a two-layer graph convolution followed by a two-layer perceptron head:
  with `s e`, `t e` the (normalised, clamped) source and target rows of edge `e`, `d` the inverse square root of the
  degrees and `A p` the set of edges whose target word names row `p`,
    H1 = x · W1,   C1 p = Σ_{e ∈ A p} H1 (s e) · (d (s e) · d (t e)) + b1,
    H2 = relu C1 · W2,   C2 p = Σ_{e ∈ A p} H2 (s e) · (d (s e) · d (t e)) + b2,
    H3 = relu C2 · Wf1 + bf1,   OUT = relu H3 · Wf2 + bf2.
  Every stage of the printed program is read at an index: the pointwise and layout stages by the generated read
  lemmas, the gathers and scatter-adds by the row / vector lemmas (a gather clamps its row index, a scatter drops an
  update whose row index is outside the array). The edge words, and the inverse square root of the degrees, stay
  opaque: both sides of the certificate compute them the same way.
-/
import proofs.«145530_j23407571763485_2_alg».proof.Proof.RefRead
import proofs.«145530_j23407571763485_2_alg».proof.Proof.LibRowOps
import proofs.«145530_j23407571763485_2_alg».proof.Proof.LibVecGather
import proofs.«145530_j23407571763485_2_alg».proof.Proof.SpecWords

noncomputable section

open scoped BigOperators
open Cert.ReferenceIdeal Cert.ReferenceIdeal.Gen Cert.ReferenceIdeal.Read Idealize.ShloMosaic Idealize.ShloMosaic.ValueIdx
open Cert.Lib Cert.Spec

namespace Cert.RefSide

/-! ## The edge words, the normalisation factor, the rows read and the updates landing at a row -/

/-- The source word of edge `e` (the first row of the edge list, then the self loops). -/
def src (x1 : (⟨S2x1600000, .i32⟩ : BufTy).Contents (Elt Ideal)) (e : Fin 1700000) : BitVec 32 := Read.val_main_v3 (F := Ideal) x1 (ix1 e)

/-- The target word of edge `e` (the second row of the edge list, then the self loops). -/
def dst (x1 : (⟨S2x1600000, .i32⟩ : BufTy).Contents (Elt Ideal)) (e : Fin 1700000) : BitVec 32 := Read.val_main_v6 (F := Ideal) x1 (ix1 e)

/-- The inverse square root of the degree of row `r` (zero where the degree is not positive). -/
def dinv (x1 : (⟨S2x1600000, .i32⟩ : BufTy).Contents (Elt Ideal)) (r : Fin 100000) : EReal := Read.val_main_v16 (F := Ideal) x1 (ix1 r)

/-- The row a gather by source reads for edge `e`: the normalised source word, read signed and clamped. -/
def gs (x1 : (⟨S2x1600000, .i32⟩ : BufTy).Contents (Elt Ideal)) (e : Fin 1700000) : Fin 100000 :=
  Cert.Lib.clampRow 100000 (by decide) (Cert.Spec.nrmWord 100000#32 (src x1 e))

/-- The row a gather by target reads for edge `e`: the normalised target word, read signed and clamped. -/
def gd (x1 : (⟨S2x1600000, .i32⟩ : BufTy).Contents (Elt Ideal)) (e : Fin 1700000) : Fin 100000 :=
  Cert.Lib.clampRow 100000 (by decide) (Cert.Spec.nrmWord 100000#32 (dst x1 e))

/-- The edges whose update lands at row `p`: those whose target word, read signed, is `p`. -/
def into (x1 : (⟨S2x1600000, .i32⟩ : BufTy).Contents (Elt Ideal)) (p : Fin 100000) : Finset (Fin 1700000) :=
  Finset.univ.filter (fun e : Fin 1700000 => Cert.Lib.row? 100000 (dst x1 e) = some p)

/-! ## The reference's formula -/

/-- The first dense transform, `x · W1`, at `(r, q)`. -/
def H1 (x0 : (⟨S100000x256, .f32⟩ : BufTy).Contents (Elt Ideal)) (x2 : (⟨S256x64, .f32⟩ : BufTy).Contents (Elt Ideal)) (r : Fin 100000) (q : Fin 64) : EReal :=
  ∑ k : Fin 256, x0 (ix2 r k) * x2 (ix2 k q)

/-- The first convolution at `(p, q)`: the normalised messages landing at row `p`, plus the bias. -/
def C1 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (p : Fin 100000) (q : Fin 64) : EReal :=
  (0 + ∑ e ∈ into x1 p, H1 x0 x2 (gs x1 e) q * (dinv x1 (gs x1 e) * dinv x1 (gd x1 e))) + x3 (ix1 q)

/-- The second dense transform, `relu C1 · W2`, at `(r, q)`. -/
def H2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (r : Fin 100000) (q : Fin 32) : EReal :=
  ∑ k : Fin 64, max (C1 x0 x1 x2 x3 r k) 0 * x4 (ix2 k q)

/-- The second convolution at `(p, q)`. -/
def C2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (p : Fin 100000) (q : Fin 32) : EReal :=
  (0 + ∑ e ∈ into x1 p, H2 x0 x1 x2 x3 x4 (gs x1 e) q * (dinv x1 (gs x1 e) * dinv x1 (gd x1 e))) + x5 (ix1 q)

/-- The head's hidden layer, `relu C2 · Wf1 + bf1`, at `(r, j)`. -/
def H3 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (r : Fin 100000) (j : Fin 16) : EReal :=
  (∑ k : Fin 32, max (C2 x0 x1 x2 x3 x4 x5 r k) 0 * x6 (ix2 k j)) + x7 (ix1 j)

/-- The result at row `p`: `relu H3 · Wf2 + bf2`. -/
def OUT (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (x8 : (⟨S16x1, .f32⟩ : BufTy).Contents (Elt Ideal)) (x9 : (⟨S1, .f32⟩ : BufTy).Contents (Elt Ideal)) (p : Fin 100000) : EReal :=
  (∑ j : Fin 16, max (H3 x0 x1 x2 x3 x4 x5 x6 x7 p j) 0 * x8 (ix2 j (0 : Fin 1))) + x9 (ix1 (0 : Fin 1))

/-! ## The index words -/

/-- Stage 21 at edge `e` is the normalised word of `src` at `e`. -/
theorem nrm_v21 (x1 : (⟨S2x1600000, .i32⟩ : BufTy).Contents (Elt Ideal)) (e : Fin 1700000) :
    val_main_v21 (F := Ideal) x1 (ix1 e) = nrmWord 100000#32 (src x1 e) := by
  rw [val_main_v21_apply, val_main_v18_apply, val_main_v20_apply, val_main_v17_apply, val_main_v19_apply,
    val_main_c_apply, val_main_c_4_apply]
  rfl

/-- Stage 28 at edge `e` is the normalised word of `dst` at `e`. -/
theorem nrm_v28 (x1 : (⟨S2x1600000, .i32⟩ : BufTy).Contents (Elt Ideal)) (e : Fin 1700000) :
    val_main_v28 (F := Ideal) x1 (ix1 e) = nrmWord 100000#32 (dst x1 e) := by
  rw [val_main_v28_apply, val_main_v25_apply, val_main_v27_apply, val_main_v24_apply, val_main_v26_apply,
    val_main_c_5_apply, val_main_c_6_apply]
  rfl

/-- Stage 37 at edge `e` is the normalised word of `src` at `e`. -/
theorem nrm_v37 (x1 : (⟨S2x1600000, .i32⟩ : BufTy).Contents (Elt Ideal)) (e : Fin 1700000) :
    val_main_v37 (F := Ideal) x1 (ix1 e) = nrmWord 100000#32 (src x1 e) := by
  rw [val_main_v37_apply, val_main_v34_apply, val_main_v36_apply, val_main_v33_apply, val_main_v35_apply,
    val_main_c_7_apply, val_main_c_8_apply]
  rfl

/-- Stage 55 at edge `e` is the normalised word of `src` at `e`. -/
theorem nrm_v55 (x1 : (⟨S2x1600000, .i32⟩ : BufTy).Contents (Elt Ideal)) (e : Fin 1700000) :
    val_main_v55 (F := Ideal) x1 (ix1 e) = nrmWord 100000#32 (src x1 e) := by
  rw [val_main_v55_apply, val_main_v52_apply, val_main_v54_apply, val_main_v51_apply, val_main_v53_apply,
    val_main_c_10_apply, val_main_c_11_apply]
  rfl

/-- The index column of the gather of the normalisation factor by source. -/
theorem col_v22 (x1 : (⟨S2x1600000, .i32⟩ : BufTy).Contents (Elt Ideal)) (e : Fin 1700000) :
    val_main_v22 (F := Ideal) x1 (ix2 e (0 : Fin 1)) = nrmWord 100000#32 (src x1 e) := by
  rw [val_main_v22_apply]
  have h : idx_main_v22 (ix2 e (0 : Fin 1)) = ix1 e := funext fun a => by match a with | ⟨0, _⟩ => rfl
  rw [h, nrm_v21]

/-- The index column of the gather of the normalisation factor by target. -/
theorem col_v29 (x1 : (⟨S2x1600000, .i32⟩ : BufTy).Contents (Elt Ideal)) (e : Fin 1700000) :
    val_main_v29 (F := Ideal) x1 (ix2 e (0 : Fin 1)) = nrmWord 100000#32 (dst x1 e) := by
  rw [val_main_v29_apply]
  have h : idx_main_v29 (ix2 e (0 : Fin 1)) = ix1 e := funext fun a => by match a with | ⟨0, _⟩ => rfl
  rw [h, nrm_v28]

/-- The index column of the first layer's row gather. -/
theorem col_v38 (x1 : (⟨S2x1600000, .i32⟩ : BufTy).Contents (Elt Ideal)) (e : Fin 1700000) :
    val_main_v38 (F := Ideal) x1 (ix2 e (0 : Fin 1)) = nrmWord 100000#32 (src x1 e) := by
  rw [val_main_v38_apply]
  have h : idx_main_v38 (ix2 e (0 : Fin 1)) = ix1 e := funext fun a => by match a with | ⟨0, _⟩ => rfl
  rw [h, nrm_v37]

/-- The index column of the second layer's row gather. -/
theorem col_v56 (x1 : (⟨S2x1600000, .i32⟩ : BufTy).Contents (Elt Ideal)) (e : Fin 1700000) :
    val_main_v56 (F := Ideal) x1 (ix2 e (0 : Fin 1)) = nrmWord 100000#32 (src x1 e) := by
  rw [val_main_v56_apply]
  have h : idx_main_v56 (ix2 e (0 : Fin 1)) = ix1 e := funext fun a => by match a with | ⟨0, _⟩ => rfl
  rw [h, nrm_v55]

/-- The index column of the first layer's scatter is the target word. -/
theorem col_v44 (x1 : (⟨S2x1600000, .i32⟩ : BufTy).Contents (Elt Ideal)) (e : Fin 1700000) :
    val_main_v44 (F := Ideal) x1 (ix2 e (0 : Fin 1)) = dst x1 e := by
  rw [val_main_v44_apply]
  have h : idx_main_v44 (ix2 e (0 : Fin 1)) = ix1 e := funext fun a => by match a with | ⟨0, _⟩ => rfl
  rw [h]
  rfl

/-- The index column of the second layer's scatter is the target word. -/
theorem col_v62 (x1 : (⟨S2x1600000, .i32⟩ : BufTy).Contents (Elt Ideal)) (e : Fin 1700000) :
    val_main_v62 (F := Ideal) x1 (ix2 e (0 : Fin 1)) = dst x1 e := by
  rw [val_main_v62_apply]
  have h : idx_main_v62 (ix2 e (0 : Fin 1)) = ix1 e := funext fun a => by match a with | ⟨0, _⟩ => rfl
  rw [h]
  rfl

/-! ## The printed dimension numbers are the generic ones -/

theorem vecGather_rec : gather_S100000_S1700000x1_S1700000_n_0_n_n_0_1_1
    = vecGather 100000 1700000 Facts₀.gather_S100000_S1700000x1_S1700000_n_0_n_n_0_1_1_wf := rfl

theorem rowGather64_rec : gather_S100000x64_S1700000x1_S1700000x64_1_0_n_n_0_1_164
    = rowGather 100000 1700000 64 Facts₀.gather_S100000x64_S1700000x1_S1700000x64_1_0_n_n_0_1_164_wf := rfl

theorem rowGather32_rec : gather_S100000x32_S1700000x1_S1700000x32_1_0_n_n_0_1_132
    = rowGather 100000 1700000 32 Facts₀.gather_S100000x32_S1700000x1_S1700000x32_1_0_n_n_0_1_132_wf := rfl

theorem rowScatter64_rec : scatter_S100000x64_S1700000x1_S1700000x64_1_0_0_1
    = rowScatter 100000 1700000 64 Facts₀.scatter_S100000x64_S1700000x1_S1700000x64_1_0_0_1_wf := rfl

theorem rowScatter32_rec : scatter_S100000x32_S1700000x1_S1700000x32_1_0_0_1
    = rowScatter 100000 1700000 32 Facts₀.scatter_S100000x32_S1700000x1_S1700000x32_1_0_0_1_wf := rfl

/-! ## The normalisation factor of an edge -/

/-- The factor gathered by source: the inverse square root of the degree at the source row. -/
theorem dinv_src (x1 : (⟨S2x1600000, .i32⟩ : BufTy).Contents (Elt Ideal)) (e : Fin 1700000) :
    val_main_v23 (F := Ideal) x1 (ix1 e) = dinv x1 (gs x1 e) := by
  unfold val_main_v23
  rw [vecGather_rec]
  refine (vecGather_apply (N := 100000) (E := 1700000) (by decide) _ (val_main_v16 (F := Ideal) x1)
    (val_main_v22 (F := Ideal) x1) e).trans ?_
  rw [col_v22]
  rfl

/-- The factor gathered by target. -/
theorem dinv_dst (x1 : (⟨S2x1600000, .i32⟩ : BufTy).Contents (Elt Ideal)) (e : Fin 1700000) :
    val_main_v30 (F := Ideal) x1 (ix1 e) = dinv x1 (gd x1 e) := by
  unfold val_main_v30
  rw [vecGather_rec]
  refine (vecGather_apply (N := 100000) (E := 1700000) (by decide) _ (val_main_v16 (F := Ideal) x1)
    (val_main_v29 (F := Ideal) x1) e).trans ?_
  rw [col_v29]
  rfl

/-- The edge's normalisation: the product of the two factors. -/
theorem norm_edge (x1 : (⟨S2x1600000, .i32⟩ : BufTy).Contents (Elt Ideal)) (e : Fin 1700000) :
    val_main_v31 (F := Ideal) x1 (ix1 e) = dinv x1 (gs x1 e) * dinv x1 (gd x1 e) := by
  rw [val_main_v31_apply, dinv_src, dinv_dst]
  rfl

/-- The normalisation spread over the 64 columns of the first layer's messages. -/
theorem norm_cols64 (x1 : (⟨S2x1600000, .i32⟩ : BufTy).Contents (Elt Ideal)) (e : Fin 1700000) (k : Fin 64) :
    val_main_v41 (F := Ideal) x1 (ix2 e k) = dinv x1 (gs x1 e) * dinv x1 (gd x1 e) := by
  rw [val_main_v41_apply]
  have h1 : idx_main_v41 (ix2 e k) = ix2 e (0 : Fin 1) :=
    funext fun a => by match a with | ⟨0, _⟩ => rfl | ⟨1, _⟩ => rfl
  rw [h1, val_main_v40_apply]
  have h2 : idx_main_v40 (ix2 e (0 : Fin 1)) = ix1 e := funext fun a => by match a with | ⟨0, _⟩ => rfl
  rw [h2, norm_edge]

/-- The normalisation spread over the 32 columns of the second layer's messages. -/
theorem norm_cols32 (x1 : (⟨S2x1600000, .i32⟩ : BufTy).Contents (Elt Ideal)) (e : Fin 1700000) (k : Fin 32) :
    val_main_v59 (F := Ideal) x1 (ix2 e k) = dinv x1 (gs x1 e) * dinv x1 (gd x1 e) := by
  rw [val_main_v59_apply]
  have h1 : idx_main_v59 (ix2 e k) = ix2 e (0 : Fin 1) :=
    funext fun a => by match a with | ⟨0, _⟩ => rfl | ⟨1, _⟩ => rfl
  rw [h1, val_main_v58_apply]
  have h2 : idx_main_v58 (ix2 e (0 : Fin 1)) = ix1 e := funext fun a => by match a with | ⟨0, _⟩ => rfl
  rw [h2, norm_edge]

/-! ## The first layer -/

/-- The first dense transform at `(r, q)`. -/
theorem dense1 (x0 : (⟨S100000x256, .f32⟩ : BufTy).Contents (Elt Ideal)) (x2 : (⟨S256x64, .f32⟩ : BufTy).Contents (Elt Ideal)) (r : Fin 100000) (q : Fin 64) :
    val_main_v32 (F := Ideal) x0 x2 (ix2 r q) = H1 x0 x2 r q := by
  rw [val_main_v32_apply]
  unfold H1
  refine Finset.sum_congr rfl fun k _ => ?_
  have hl : lidx_main_v32 (ix2 r q) k = ix2 r k :=
    funext fun a => by match a with | ⟨0, _⟩ => rfl | ⟨1, _⟩ => rfl
  have hr : ridx_main_v32 (ix2 r q) k = ix2 k q :=
    funext fun a => by match a with | ⟨0, _⟩ => rfl | ⟨1, _⟩ => rfl
  rw [hl, hr]

/-- The first layer's gathered rows: the dense transform at the source row. -/
theorem rows1 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (e : Fin 1700000) (k : Fin 64) :
    val_main_v39 (F := Ideal) x0 x1 x2 (ix2 e k) = H1 x0 x2 (gs x1 e) k := by
  unfold val_main_v39
  rw [rowGather64_rec]
  refine (rowGather_apply (N := 100000) (E := 1700000) (D := 64) (by decide) _ (val_main_v32 (F := Ideal) x0 x2)
    (val_main_v38 (F := Ideal) x1) e k).trans ?_
  rw [col_v38]
  exact dense1 x0 x2 (gs x1 e) k

/-- The edges whose first-layer update lands at row `p`. -/
theorem into_v44 (x1 : (⟨S2x1600000, .i32⟩ : BufTy).Contents (Elt Ideal)) (p : Fin 100000) :
    Finset.univ.filter (fun e : Fin 1700000 => row? 100000 (val_main_v44 (F := Ideal) x1 (ix2 e (0 : Fin 1))) = some p)
      = into x1 p := by
  unfold into
  refine Finset.filter_congr fun e _ => ?_
  rw [col_v44]

/-- The first layer's aggregate at `(p, q)`. -/
theorem agg1 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (p : Fin 100000) (q : Fin 64) :
    val_main_v45 (F := Ideal) x0 x1 x2 (ix2 p q)
      = 0 + ∑ e ∈ into x1 p, H1 x0 x2 (gs x1 e) q * (dinv x1 (gs x1 e) * dinv x1 (gd x1 e)) := by
  unfold val_main_v45
  rw [rowScatter64_rec]
  refine (rowScatterAdd_apply (N := 100000) (E := 1700000) (D := 64) _ (val_main_v43 (F := Ideal))
    (val_main_v44 (F := Ideal) x1) (val_main_v42 (F := Ideal) x0 x1 x2) p q).trans ?_
  rw [val_main_v43_apply, val_main_cst_9_apply, Ideal.ofBits_def, Ideal.ofBits_zero_f32, into_v44]
  refine congrArg (fun z : EReal => 0 + z) ?_
  refine Finset.sum_congr rfl fun e _ => ?_
  rw [val_main_v42_apply, rows1, norm_cols64]
  rfl

/-- The first convolution at `(p, q)`. -/
theorem conv1 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (p : Fin 100000) (q : Fin 64) :
    val_main_v48 (F := Ideal) x0 x1 x2 x3 (ix2 p q) = C1 x0 x1 x2 x3 p q := by
  rw [val_main_v48_apply, agg1, val_main_v47_apply]
  have h1 : idx_main_v47 (ix2 p q) = ix2 (0 : Fin 1) q :=
    funext fun a => by match a with | ⟨0, _⟩ => rfl | ⟨1, _⟩ => rfl
  rw [h1, val_main_v46_apply]
  have h2 : idx_main_v46 (ix2 (0 : Fin 1) q) = ix1 q := funext fun a => by match a with | ⟨0, _⟩ => rfl
  rw [h2]
  rfl

/-! ## The second layer -/

/-- The rectified first convolution at `(p, q)`. -/
theorem relu1 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (p : Fin 100000) (q : Fin 64) :
    val_main_v49 (F := Ideal) x0 x1 x2 x3 (ix2 p q) = max (C1 x0 x1 x2 x3 p q) 0 := by
  rw [val_main_v49_apply, conv1, val_main_call1_v0_apply, val_main_call1_cst_apply, Ideal.ofBits_def,
    Ideal.ofBits_zero_f32]
  rfl

/-- The second dense transform at `(r, q)`. -/
theorem dense2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (r : Fin 100000) (q : Fin 32) :
    val_main_v50 (F := Ideal) x0 x1 x2 x3 x4 (ix2 r q) = H2 x0 x1 x2 x3 x4 r q := by
  rw [val_main_v50_apply]
  unfold H2
  refine Finset.sum_congr rfl fun k _ => ?_
  have hl : lidx_main_v50 (ix2 r q) k = ix2 r k :=
    funext fun a => by match a with | ⟨0, _⟩ => rfl | ⟨1, _⟩ => rfl
  have hr : ridx_main_v50 (ix2 r q) k = ix2 k q :=
    funext fun a => by match a with | ⟨0, _⟩ => rfl | ⟨1, _⟩ => rfl
  rw [hl, hr, relu1]

/-- The second layer's gathered rows: the dense transform at the source row. -/
theorem rows2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (e : Fin 1700000) (k : Fin 32) :
    val_main_v57 (F := Ideal) x0 x1 x2 x3 x4 (ix2 e k) = H2 x0 x1 x2 x3 x4 (gs x1 e) k := by
  unfold val_main_v57
  rw [rowGather32_rec]
  refine (rowGather_apply (N := 100000) (E := 1700000) (D := 32) (by decide) _
    (val_main_v50 (F := Ideal) x0 x1 x2 x3 x4) (val_main_v56 (F := Ideal) x1) e k).trans ?_
  rw [col_v56]
  exact dense2 x0 x1 x2 x3 x4 (gs x1 e) k

/-- The edges whose second-layer update lands at row `p`. -/
theorem into_v62 (x1 : (⟨S2x1600000, .i32⟩ : BufTy).Contents (Elt Ideal)) (p : Fin 100000) :
    Finset.univ.filter (fun e : Fin 1700000 => row? 100000 (val_main_v62 (F := Ideal) x1 (ix2 e (0 : Fin 1))) = some p)
      = into x1 p := by
  unfold into
  refine Finset.filter_congr fun e _ => ?_
  rw [col_v62]

/-- The second layer's aggregate at `(p, q)`. -/
theorem agg2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (p : Fin 100000) (q : Fin 32) :
    val_main_v63 (F := Ideal) x0 x1 x2 x3 x4 (ix2 p q)
      = 0 + ∑ e ∈ into x1 p, H2 x0 x1 x2 x3 x4 (gs x1 e) q * (dinv x1 (gs x1 e) * dinv x1 (gd x1 e)) := by
  unfold val_main_v63
  rw [rowScatter32_rec]
  refine (rowScatterAdd_apply (N := 100000) (E := 1700000) (D := 32) _ (val_main_v61 (F := Ideal))
    (val_main_v62 (F := Ideal) x1) (val_main_v60 (F := Ideal) x0 x1 x2 x3 x4) p q).trans ?_
  rw [val_main_v61_apply, val_main_cst_12_apply, Ideal.ofBits_def, Ideal.ofBits_zero_f32, into_v62]
  refine congrArg (fun z : EReal => 0 + z) ?_
  refine Finset.sum_congr rfl fun e _ => ?_
  rw [val_main_v60_apply, rows2, norm_cols32]
  rfl

/-- The second convolution at `(p, q)`. -/
theorem conv2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (p : Fin 100000) (q : Fin 32) :
    val_main_v66 (F := Ideal) x0 x1 x2 x3 x4 x5 (ix2 p q) = C2 x0 x1 x2 x3 x4 x5 p q := by
  rw [val_main_v66_apply, agg2, val_main_v65_apply]
  have h1 : idx_main_v65 (ix2 p q) = ix2 (0 : Fin 1) q :=
    funext fun a => by match a with | ⟨0, _⟩ => rfl | ⟨1, _⟩ => rfl
  rw [h1, val_main_v64_apply]
  have h2 : idx_main_v64 (ix2 (0 : Fin 1) q) = ix1 q := funext fun a => by match a with | ⟨0, _⟩ => rfl
  rw [h2]
  rfl

/-! ## The head -/

/-- The rectified second convolution at `(p, q)`. -/
theorem relu2 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (p : Fin 100000) (q : Fin 32) :
    val_main_v67 (F := Ideal) x0 x1 x2 x3 x4 x5 (ix2 p q) = max (C2 x0 x1 x2 x3 x4 x5 p q) 0 := by
  rw [val_main_v67_apply, conv2, val_main_call2_v0_apply, val_main_call2_cst_apply, Ideal.ofBits_def,
    Ideal.ofBits_zero_f32]
  rfl

/-- The head's hidden layer at `(r, j)`. -/
theorem hidden (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (r : Fin 100000) (j : Fin 16) :
    val_main_v71 (F := Ideal) x0 x1 x2 x3 x4 x5 x6 x7 (ix2 r j) = H3 x0 x1 x2 x3 x4 x5 x6 x7 r j := by
  rw [val_main_v71_apply, val_main_v68_apply, val_main_v70_apply]
  have h1 : idx_main_v70 (ix2 r j) = ix2 (0 : Fin 1) j :=
    funext fun a => by match a with | ⟨0, _⟩ => rfl | ⟨1, _⟩ => rfl
  rw [h1, val_main_v69_apply]
  have h2 : idx_main_v69 (ix2 (0 : Fin 1) j) = ix1 j := funext fun a => by match a with | ⟨0, _⟩ => rfl
  rw [h2]
  unfold H3
  rw [Ideal.addf_def]
  refine congrArg (fun z : EReal => z + x7 (ix1 j)) ?_
  refine Finset.sum_congr rfl fun k _ => ?_
  have hl : lidx_main_v68 (ix2 r j) k = ix2 r k :=
    funext fun a => by match a with | ⟨0, _⟩ => rfl | ⟨1, _⟩ => rfl
  have hr : ridx_main_v68 (ix2 r j) k = ix2 k j :=
    funext fun a => by match a with | ⟨0, _⟩ => rfl | ⟨1, _⟩ => rfl
  rw [hl, hr, relu2]

/-- The rectified hidden layer at `(r, j)`. -/
theorem relu3 (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (r : Fin 100000) (j : Fin 16) :
    val_main_v72 (F := Ideal) x0 x1 x2 x3 x4 x5 x6 x7 (ix2 r j) = max (H3 x0 x1 x2 x3 x4 x5 x6 x7 r j) 0 := by
  rw [val_main_v72_apply, hidden, val_main_call3_v0_apply, val_main_call3_cst_apply, Ideal.ofBits_def,
    Ideal.ofBits_zero_f32]
  rfl

/-- THE REFERENCE AT ROW `p` is its formula. -/
theorem ref_value (x0 : (⟨S100000x256, .f32⟩ : BufTy).Contents (Elt Ideal)) (x1 : (⟨S2x1600000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (x8 : (⟨S16x1, .f32⟩ : BufTy).Contents (Elt Ideal)) (x9 : (⟨S1, .f32⟩ : BufTy).Contents (Elt Ideal)) (p : Fin 100000) :
    Read.val_main_v77 (F := Ideal) x0 x1 x2 x3 x4 x5 x6 x7 x8 x9 (ix1 p) = OUT x0 x1 x2 x3 x4 x5 x6 x7 x8 x9 p := by
  rw [val_main_v77_apply]
  have h0 : idx_main_v77 (ix1 p) = ix2 p (0 : Fin 1) :=
    funext fun a => Fin.ext (by match a with | ⟨0, _⟩ => exact Nat.div_one _ | ⟨1, _⟩ => rfl)
  rw [h0, val_main_v76_apply, val_main_v73_apply, val_main_v75_apply]
  have h1 : idx_main_v75 (ix2 p (0 : Fin 1)) = ix2 (0 : Fin 1) (0 : Fin 1) :=
    funext fun a => by match a with | ⟨0, _⟩ => rfl | ⟨1, _⟩ => rfl
  rw [h1, val_main_v74_apply]
  have h2 : idx_main_v74 (ix2 (0 : Fin 1) (0 : Fin 1)) = ix1 (0 : Fin 1) :=
    funext fun a => by match a with | ⟨0, _⟩ => rfl
  rw [h2]
  unfold OUT
  rw [Ideal.addf_def]
  refine congrArg (fun z : EReal => z + x9 (ix1 (0 : Fin 1))) ?_
  refine Finset.sum_congr rfl fun j _ => ?_
  have hl : lidx_main_v73 (ix2 p (0 : Fin 1)) j = ix2 p j :=
    funext fun a => by match a with | ⟨0, _⟩ => rfl | ⟨1, _⟩ => rfl
  have hr : ridx_main_v73 (ix2 p (0 : Fin 1)) j = ix2 j (0 : Fin 1) :=
    funext fun a => by match a with | ⟨0, _⟩ => rfl | ⟨1, _⟩ => rfl
  rw [hl, hr, relu3]

end Cert.RefSide

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.LibRealEntries.lean ====
/-
  Arrays of real numbers, and the host operations that keep them so.

  On the extended reals an array all of whose entries are real numbers stays one under: re-indexing (a broadcast, a
  gather, a slice), entrywise sums and products, a constant that denotes a real, an accumulating scatter (each entry
  plus a finite sum of updates), a plain matrix product read as a sum, joining two vectors end to end, and the guarded
  reciprocal square root  select (d > 0) (rsqrt d) 0  (rsqrt of a positive real is real; elsewhere the guard picks 0).
-/
import Idealize.ShloMosaic.PureOps.Ideal
import Idealize.ShloMosaic.PureOps.Ideal.Laws
import Idealize.ShloMosaic.Lib.Pipeline.Value
import Idealize.ShloMosaic.Lib.ValueIdx
import proofs.«145530_j23407571763485_2_alg».proof.Proof.LibERealSum

noncomputable section

namespace Cert.Lib

open Idealize.ShloMosaic Idealize.ShloMosaic.ValueIdx

/-- Every entry is a real number. -/
def AllReal {ι : Type} (v : ι → EReal) : Prop := ∀ i, ∃ r : ℝ, v i = (r : EReal)

/-- An array read through any index map. -/
theorem AllReal.reindex {ι κ : Type} {v : ι → EReal} (h : AllReal v) (f : κ → ι) : AllReal (fun j => v (f j)) :=
  fun j => h (f j)

variable {s si t u : Shape} {φ : FTy}

/-- A host gather reads entries of its operand. -/
theorem allReal_gather {w : Nat} (d : GatherDims s si t) (x : s.Idx → EReal) (idx : IVec si w) (h : AllReal x) :
    AllReal (Host.gather d x idx) := fun j => h _

/-- A broadcast reads entries of its operand. -/
theorem allReal_broadcastInDim (dims : Fin s.rank → Fin t.rank) (hb : s.BroadcastsInDim t dims) (x : s.Idx → EReal)
    (h : AllReal x) : AllReal (broadcastInDim t dims hb x) := fun j => h _

/-- An entrywise product. -/
theorem allReal_mulf (a b : FVec Ideal s φ) (ha : AllReal a) (hb : AllReal b) : AllReal (mulf a b) := fun i => by
  obtain ⟨ra, ha⟩ := ha i
  obtain ⟨rb, hb⟩ := hb i
  exact ⟨ra * rb, by show a i * b i = _; rw [ha, hb, EReal.coe_mul]⟩

/-- An entrywise sum. -/
theorem allReal_addf (a b : FVec Ideal s φ) (ha : AllReal a) (hb : AllReal b) : AllReal (addf a b) := fun i => by
  obtain ⟨ra, ha⟩ := ha i
  obtain ⟨rb, hb⟩ := hb i
  exact ⟨ra + rb, by show a i + b i = _; rw [ha, hb, EReal.coe_add]⟩

/-- The zero splat. -/
theorem allReal_zero : AllReal (constant (F := Ideal) s .f32 0x00000000#32) :=
  fun _ => ⟨0, by show Ideal.ofBits .f32 0x00000000#32 = _; rw [Ideal.ofBits_zero_f32]; rfl⟩

/-- A real plus a finite sum of reals is a real. -/
theorem exists_real_add_sum {ι : Type} (S : Finset ι) (a : EReal) (upd : ι → EReal) (ha : ∃ r : ℝ, a = (r : EReal))
    (hu : AllReal upd) : ∃ r : ℝ, a + ∑ j ∈ S, upd j = (r : EReal) := by
  obtain ⟨ra, ha⟩ := ha
  choose f hf using hu
  exact ⟨ra + ∑ j ∈ S, f j, by rw [ha, Finset.sum_congr rfl (fun j _ => hf j), sum_coe, EReal.coe_add]⟩

/-- An accumulating scatter: each entry of the operand plus the finite sum of the updates that land on it. -/
theorem allReal_scatterAdd {w : Nat} (d : ScatterDims s si u) (x : FVec Ideal s φ) (idx : IVec si w) (upd : FVec Ideal u φ)
    (hx : AllReal x) (hu : AllReal upd) : AllReal (Host.scatterAdd d x idx upd) := fun i => by
  show ∃ r : ℝ, Ideal.hostScatterAdd d x idx upd i = (r : EReal)
  unfold Ideal.hostScatterAdd
  exact exists_real_add_sum _ _ _ (hx i) hu

/-- A finite sum of products of reals. -/
theorem exists_real_sum_mul {ι : Type} [Fintype ι] (a b : ι → EReal) (ha : AllReal a) (hb : AllReal b) :
    ∃ r : ℝ, ∑ k, a k * b k = (r : EReal) := by
  choose f hf using ha
  choose g hg using hb
  exact ⟨∑ k, f k * g k, by
    rw [Finset.sum_congr rfl (fun k _ => by rw [hf k, hg k, ← EReal.coe_mul]), sum_coe]⟩

/-- The guarded reciprocal square root of a real: rsqrt where the argument is positive, 0 elsewhere. -/
theorem exists_real_guarded_rsqrt (r : ℝ) :
    ∃ q : ℝ, Scalar.select (Ideal.cmp .ogt (r : EReal) (Ideal.ofBits .f32 0x00000000#32)) (Ideal.rsqrt (r : EReal))
      (Ideal.ofBits .f32 0x00000000#32) = (q : EReal) := by
  rw [Ideal.ofBits_zero_f32]
  unfold Scalar.select Ideal.cmp
  by_cases h : (0 : EReal) < (r : EReal)
  · have hr : 0 < r := EReal.coe_pos.mp h
    refine ⟨(Real.sqrt r)⁻¹, ?_⟩
    simp only [h, decide_true, BitVec.ofBool_true, if_true]
    rw [Ideal.rsqrt_coe, if_neg (not_lt.mpr hr.le), if_neg hr.ne']
  · refine ⟨0, ?_⟩
    simp only [h, decide_false, BitVec.ofBool_false]
    rfl

end Cert.Lib

end
-- ==== Proof.LibRealMore.lean ====
/-
  More operations that keep an array real.

  Beside sums, products, gathers, broadcasts and accumulating scatters (the companion file), an array all of whose
  entries are real numbers stays so under an entrywise maximum, under the host's matrix product (each entry a finite
  sum of products), and under the reciprocal square root of an array that was first clamped below by 1: the maximum
  of a real and 1 is a real number at least 1, and the reciprocal square root of a positive real is a real number.
  The float words 0x3F800000 and 0x00000000 denote the reals 1 and 0.
-/
import proofs.«145530_j23407571763485_2_alg».proof.Proof.LibRealEntries

noncomputable section

namespace Cert.Lib

open Idealize.ShloMosaic Idealize.ShloMosaic.ValueIdx

variable {s sl sr so : Shape} {φ φ₁ φ₂ : FTy}

/-- The float word of 1.0 denotes the real number 1. -/
theorem ofBits_one_f32 : Ideal.ofBits .f32 0x3F800000#32 = ((1 : ℝ) : EReal) := by
  simp [Ideal.ofBits, Ideal.ieee, -EReal.coe_mul]; norm_num

/-- A scalar constant that denotes a real, repeated over any shape, is an array of reals. -/
theorem allReal_splat (t : Shape) (hb : (⟨0, ![]⟩ : Shape).BroadcastsInDim t (![] : Fin 0 → Fin t.rank)) (w : BitVec 32)
    (hw : ∃ r : ℝ, Ideal.ofBits .f32 w = (r : EReal)) :
    AllReal (broadcastInDim t ![] hb (constant (F := Ideal) ⟨0, ![]⟩ .f32 w)) := fun _ => hw

/-- The maximum of two reals is a real. -/
theorem exists_real_max {a b : EReal} (ha : ∃ r : ℝ, a = (r : EReal)) (hb : ∃ r : ℝ, b = (r : EReal)) :
    ∃ r : ℝ, max a b = (r : EReal) := by
  obtain ⟨ra, rfl⟩ := ha
  obtain ⟨rb, rfl⟩ := hb
  exact ⟨max ra rb, (EReal.coe_strictMono.monotone.map_max).symm⟩

/-- An entrywise maximum. -/
theorem allReal_maximumf (a b : FVec Ideal s φ) (ha : AllReal a) (hb : AllReal b) : AllReal (maximumf a b) :=
  fun i => exists_real_max (ha i) (hb i)

/-- The host's matrix product: each entry is a finite sum of products of entries. -/
theorem allReal_dotGeneral (d : DotDims sl sr so) (l : FVec Ideal sl φ₁) (r : FVec Ideal sr φ₂)
    (hl : AllReal l) (hr : AllReal r) : AllReal (Host.dotGeneral d none l r) := fun i => by
  show ∃ q : ℝ, FloatOps.dotGeneral d none .single l r i = (q : EReal)
  rw [Ideal.dotGeneral_apply]
  exact exists_real_sum_mul _ _ (fun k => hl _) (fun k => hr _)

/-- The reciprocal square root of max (a, 1): a real number whenever a is. -/
theorem exists_real_rsqrt_max_one {a : EReal} (ha : ∃ r : ℝ, a = (r : EReal)) :
    ∃ q : ℝ, Ideal.rsqrt (max a (Ideal.ofBits .f32 0x3F800000#32)) = (q : EReal) := by
  obtain ⟨r, rfl⟩ := ha
  rw [ofBits_one_f32, ← EReal.coe_strictMono.monotone.map_max, Ideal.rsqrt_coe]
  have h1 : (1 : ℝ) ≤ max r 1 := le_max_right r 1
  have hpos : (0 : ℝ) < max r 1 := lt_of_lt_of_le one_pos h1
  rw [if_neg (not_lt.mpr hpos.le), if_neg hpos.ne']
  exact ⟨_, rfl⟩

/-- The host's reciprocal square root of an array of reals clamped below by the splat of 1. -/
theorem allReal_rsqrt_max_one (hb : (⟨0, ![]⟩ : Shape).BroadcastsInDim s (![] : Fin 0 → Fin s.rank))
    (a : FVec Ideal s .f32) (ha : AllReal a) :
    AllReal (Host.rsqrt (maximumf a (broadcastInDim s ![] hb (constant (F := Ideal) ⟨0, ![]⟩ .f32 0x3F800000#32)))) :=
  fun i => exists_real_rsqrt_max_one (ha i)

end Cert.Lib

end
-- ==== Proof.DinvReal.lean ====
/-
  The reference's normalisation vector has real entries.

  The degree of a node is a scatter of ones into zeros, so it is a real number (a finite sum of ones). The
  normalisation is  select (deg > 0) (rsqrt (max deg 1)) 0 : the maximum of a real number and 1 is a real number at
  least 1, whose reciprocal square root is a real number; the other branch is the real number 0; and a selection
  returns one of its two branches whichever way the comparison goes.
-/
import proofs.«145530_j23407571763485_2_alg».proof.Proof.RefRead
import proofs.«145530_j23407571763485_2_alg».proof.Proof.LibRealEntries
import proofs.«145530_j23407571763485_2_alg».proof.Proof.LibRealMore

noncomputable section

open Cert.ReferenceIdeal Cert.ReferenceIdeal.Gen Cert.ReferenceIdeal.Read Idealize.ShloMosaic Idealize.ShloMosaic.TcCoe
  Idealize.SL.Sem Idealize.ShloMosaic.StableHlo
open Cert.Lib

namespace Cert.RefSide

/-- The float word of 0.0 denotes a real number. -/
theorem zero_word_real : ∃ r : ℝ, Ideal.ofBits .f32 0x00000000#32 = (r : EReal) :=
  ⟨0, by rw [Ideal.ofBits_zero_f32]; rfl⟩

/-- The float word of 1.0 denotes a real number. -/
theorem one_word_real : ∃ r : ℝ, Ideal.ofBits .f32 0x3F800000#32 = (r : EReal) :=
  ⟨1, ofBits_one_f32⟩

/-- The degree vector — ones scattered into zeros — has real entries. -/
theorem deg_allReal (x1 : (⟨S2x1600000, .i32⟩ : BufTy).Contents (Elt Ideal)) :
    AllReal (val_main_v10 (F := Ideal) x1) :=
  allReal_scatterAdd _ _ _ _ (allReal_splat _ _ _ zero_word_real) (allReal_splat _ _ _ one_word_real)

/-- The reciprocal square root of the degree clamped below by 1 has real entries. -/
theorem rsqrt_deg_allReal (x1 : (⟨S2x1600000, .i32⟩ : BufTy).Contents (Elt Ideal)) :
    AllReal (val_main_v15 (F := Ideal) x1) :=
  allReal_rsqrt_max_one _ _ (deg_allReal x1)

/-- The other branch of the selection, the splat of 0.0, has real entries. -/
theorem zero_branch_allReal : AllReal (val_main_call0_v1 (F := Ideal)) :=
  allReal_splat _ _ _ zero_word_real

/-- The normalisation vector has real entries: a selection returns one of its two branches. -/
theorem dinv_allReal (x1 : (⟨S2x1600000, .i32⟩ : BufTy).Contents (Elt Ideal)) :
    AllReal (val_main_v16 (F := Ideal) x1) := by
  intro i
  rw [val_main_v16_apply]
  unfold Scalar.select
  split
  · exact rsqrt_deg_allReal x1 i
  · exact zero_branch_allReal i

end Cert.RefSide

end
-- ==== Proof.LayerLaw.lean ====
/-
  The algebraic law behind the two programs.

  The reference weights the contribution of an edge `e` into node `p` by `d (s e) * d (t e)`. The kernel multiplies
  the features of node `r` by `d r` before the aggregation, sums over a re-ordered list of the same edges, and
  multiplies by `d p` once after the sum. On the extended reals a factor cannot be moved across a sum in general
  (the law fails at opposite infinities), so the law is proved for arrays all of whose entries are real numbers:
  every quantity is then the coercion of a real number, and the identity is the distributive law in `ℝ`.
-/
import proofs.«145530_j23407571763485_2_alg».proof.Proof.Spec
import proofs.«145530_j23407571763485_2_alg».proof.Proof.LibERealSum

open scoped BigOperators

namespace Cert.Spec

/-- An extended real that is a real number. -/
def IsReal (v : EReal) : Prop := ∃ a : ℝ, v = (a : EReal)

theorem isReal_zero : IsReal 0 := ⟨0, EReal.coe_zero.symm⟩

theorem IsReal.add {u v : EReal} (hu : IsReal u) (hv : IsReal v) : IsReal (u + v) := by
  obtain ⟨a, rfl⟩ := hu
  obtain ⟨b, rfl⟩ := hv
  exact ⟨a + b, (EReal.coe_add a b).symm⟩

theorem IsReal.mul {u v : EReal} (hu : IsReal u) (hv : IsReal v) : IsReal (u * v) := by
  obtain ⟨a, rfl⟩ := hu
  obtain ⟨b, rfl⟩ := hv
  exact ⟨a * b, (EReal.coe_mul a b).symm⟩

/-- The coercion of the reals into the extended reals commutes with `max`. -/
theorem coe_max_real (a b : ℝ) : ((max a b : ℝ) : EReal) = max (a : EReal) (b : EReal) :=
  EReal.coe_strictMono.monotone.map_max

theorem IsReal.max_zero {u : EReal} (hu : IsReal u) : IsReal (max u 0) := by
  obtain ⟨a, rfl⟩ := hu
  exact ⟨max a 0, by rw [coe_max_real, EReal.coe_zero]⟩

theorem isReal_sum {ι : Type*} (S : Finset ι) (f : ι → EReal) (hf : ∀ i ∈ S, IsReal (f i)) :
    IsReal (∑ i ∈ S, f i) := by
  classical
  induction S using Finset.induction_on with
  | empty => simpa using isReal_zero
  | insert a S ha ih =>
    rw [Finset.sum_insert ha]
    exact (hf a (Finset.mem_insert_self a S)).add (ih (fun i hi => hf i (Finset.mem_insert_of_mem hi)))

variable {N E : ℕ}

/-- The reference's graph convolution of real features with real factors and a real bias has real entries. -/
theorem isReal_refConv {B : ℕ} (A : Fin N → Finset (Fin E)) (s t : Fin E → Fin N) (d : Fin N → EReal)
    (H : Fin N → Fin B → EReal) (b : Fin B → EReal)
    (hd : ∀ r, IsReal (d r)) (hH : ∀ r q, IsReal (H r q)) (hb : ∀ q, IsReal (b q)) (p : Fin N) (q : Fin B) :
    IsReal (refConv A s t d H b p q) := by
  unfold refConv
  exact (isReal_zero.add (isReal_sum _ _ (fun e _ => (hH _ _).mul ((hd _).mul (hd _))))).add (hb q)

/-- A dense transform `∑ k, f k * w k q` of real entries by real weights has real entries. -/
theorem isReal_dense {K : ℕ} (f : Fin K → EReal) (w : Fin K → EReal)
    (hf : ∀ k, IsReal (f k)) (hw : ∀ k, IsReal (w k)) : IsReal (∑ k, f k * w k) :=
  isReal_sum _ _ (fun k _ => (hf k).mul (hw k))

/-- **The layer law.** Features scaled by the source's factor, summed over the re-ordered edges into `p`, then
    scaled by the factor of `p`, give the reference's convolution: the re-ordered list has the same edges into `p`
    (`hA`) reading the same source rows (`hs`), every edge into `p` reads `p` as its target row (`ht`), and with real
    entries the factor `d p` moves inside the sum. -/
theorem scaled_aggregate_eq_refConv {B : ℕ} (A A' : Fin N → Finset (Fin E)) (s s' t : Fin E → Fin N)
    (d : Fin N → EReal) (σ : Fin E ≃ Fin E)
    (hA : ∀ p e', e' ∈ A' p ↔ σ e' ∈ A p) (hs : ∀ e', s' e' = s (σ e'))
    (ht : ∀ p, ∀ e ∈ A p, t e = p) (hd : ∀ r, IsReal (d r))
    (H : Fin N → Fin B → EReal) (hH : ∀ r q, IsReal (H r q)) (b : Fin B → EReal) (p : Fin N) (q : Fin B) :
    (0 + ∑ e' ∈ A' p, H (s' e') q * d (s' e')) * d p + b q = refConv A s t d H b p q := by
  unfold refConv
  -- the re-ordered sum is the sum over the edges into `p`
  have h1 : ∑ e' ∈ A' p, H (s' e') q * d (s' e') = ∑ e ∈ A p, H (s e) q * d (s e) :=
    Finset.sum_equiv σ (hA p) (fun e' _ => by rw [hs e'])
  -- inside the reference's sum the target row is `p`
  have h2 : ∑ e ∈ A p, H (s e) q * (d (s e) * d (t e)) = ∑ e ∈ A p, H (s e) q * (d (s e) * d p) :=
    Finset.sum_congr rfl (fun e he => by rw [ht p e he])
  rw [h1, h2]
  congr 1
  -- pass to the reals
  choose dR hdR using hd
  choose HR hHR using hH
  simp only [hdR, hHR, zero_add, ← EReal.coe_mul, Cert.Lib.sum_coe]
  congr 1
  rw [Finset.sum_mul]
  exact Finset.sum_congr rfl (fun e _ => by ring)

variable {K0 B1 B2 B3 : ℕ}

/-- **The kernel's formula equals the reference's formula** when the re-ordered edge list is a re-ordering of the
    reference's (`hA`, `hs`), every edge into `p` reads `p` as its target row (`ht`), and every entry of every array is
    a real number. The two sides differ exactly by two uses of the layer law: once with the first transform
    `x · w1` as features, once with the second transform of the first layer's result. -/
theorem kerOut_eq_refOut
    (A A' : Fin N → Finset (Fin E)) (s s' t : Fin E → Fin N) (d : Fin N → EReal)
    (x : Fin N → Fin K0 → EReal) (w1 : Fin K0 → Fin B1 → EReal) (b1 : Fin B1 → EReal)
    (w2 : Fin B1 → Fin B2 → EReal) (b2 : Fin B2 → EReal) (wf1 : Fin B2 → Fin B3 → EReal) (bf1 : Fin B3 → EReal)
    (wf2 : Fin B3 → EReal) (bf2 : EReal)
    (σ : Fin E ≃ Fin E)
    (hA : ∀ p e', e' ∈ A' p ↔ σ e' ∈ A p)
    (hs : ∀ e', s' e' = s (σ e'))
    (ht : ∀ p, ∀ e ∈ A p, t e = p)
    (hd : ∀ r, ∃ a : ℝ, d r = (a : EReal))
    (hx : ∀ r k, ∃ a : ℝ, x r k = (a : EReal))
    (hw1 : ∀ k q, ∃ a : ℝ, w1 k q = (a : EReal))
    (hb1 : ∀ q, ∃ a : ℝ, b1 q = (a : EReal))
    (hw2 : ∀ k q, ∃ a : ℝ, w2 k q = (a : EReal))
    (hb2 : ∀ q, ∃ a : ℝ, b2 q = (a : EReal))
    (hwf1 : ∀ k j, ∃ a : ℝ, wf1 k j = (a : EReal))
    (hbf1 : ∀ j, ∃ a : ℝ, bf1 j = (a : EReal))
    (hwf2 : ∀ j, ∃ a : ℝ, wf2 j = (a : EReal))
    (hbf2 : ∃ a : ℝ, bf2 = (a : EReal)) (p : Fin N) :
    kerOut A' s' d x w1 b1 w2 b2 wf1 bf1 wf2 bf2 p = refOut A s t d x w1 b1 w2 b2 wf1 bf1 wf2 bf2 p := by
  -- the first transform has real entries
  have hH1 : ∀ r q, IsReal (∑ k, x r k * w1 k q) :=
    fun r q => isReal_dense (fun k => x r k) (fun k => w1 k q) (fun k => hx r k) (fun k => hw1 k q)
  -- first use of the layer law
  have L1 : ∀ r q, (0 + ∑ e ∈ A' r, (∑ k, x (s' e) k * w1 k q) * d (s' e)) * d r + b1 q
      = refConv A s t d (fun r q => ∑ k, x r k * w1 k q) b1 r q :=
    fun r q => scaled_aggregate_eq_refConv A A' s s' t d σ hA hs ht hd
      (fun r q => ∑ k, x r k * w1 k q) hH1 b1 r q
  -- the second transform, of the first layer's result, has real entries
  have hH2 : ∀ r q,
      IsReal (∑ k, max (refConv A s t d (fun r q => ∑ k, x r k * w1 k q) b1 r k) 0 * w2 k q) :=
    fun r q => isReal_dense
      (fun k => max (refConv A s t d (fun r q => ∑ k, x r k * w1 k q) b1 r k) 0) (fun k => w2 k q)
      (fun k => (isReal_refConv A s t d (fun r q => ∑ k, x r k * w1 k q) b1 hd hH1 hb1 r k).max_zero)
      (fun k => hw2 k q)
  -- second use of the layer law
  have L2 : ∀ r q,
      (0 + ∑ e ∈ A' r,
          (∑ k, max (refConv A s t d (fun r q => ∑ k, x r k * w1 k q) b1 (s' e) k) 0 * w2 k q) * d (s' e)) * d r
        + b2 q
      = refConv A s t d
          (fun r q => ∑ k, max (refConv A s t d (fun r q => ∑ k, x r k * w1 k q) b1 r k) 0 * w2 k q) b2 r q :=
    fun r q => scaled_aggregate_eq_refConv A A' s s' t d σ hA hs ht hd
      (fun r q => ∑ k, max (refConv A s t d (fun r q => ∑ k, x r k * w1 k q) b1 r k) 0 * w2 k q) hH2 b2 r q
  unfold kerOut refOut
  simp only [L1, L2]

end Cert.Spec
-- ==== Proof.RefSpec.lean ====
/-
  The reference's formula is the abstract formula `refOut` of the specification, at this graph.

  The graph: the edges into row `p` are those whose target word, read signed, is `p`; an edge reads the rows named by
  its normalised and clamped source and target words; the per-node factor is the inverse square root of the degree.
  Every edge into `p` reads `p` as its target row, because a word that names a row is left alone by the
  normalisation and by the clamp.
-/
import proofs.«145530_j23407571763485_2_alg».proof.Proof.RefValue
import proofs.«145530_j23407571763485_2_alg».proof.Proof.Spec
import proofs.«145530_j23407571763485_2_alg».proof.Proof.IndexFacts
import proofs.«145530_j23407571763485_2_alg».proof.Proof.LibRealEntries
import proofs.«145530_j23407571763485_2_alg».proof.Proof.DinvReal
import proofs.«145530_j23407571763485_2_alg».proof.Proof.LayerLaw

noncomputable section

open scoped BigOperators
open Cert.ReferenceIdeal Cert.ReferenceIdeal.Gen Cert.ReferenceIdeal.Read Idealize.ShloMosaic Idealize.ShloMosaic.ValueIdx
open Cert.Lib Cert.Spec

namespace Cert.RefSide

/-- The reference's formula at row `p` is `refOut` at this graph and these arrays: the two are the same expression. -/
theorem out_eq_refOut (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal)) (p : Fin 100000) :
    OUT x0 x1 x2 x3 x4 x5 x6 x7 x8 x9 p
      = Cert.Spec.refOut (into x1) (gs x1) (gd x1) (dinv x1) (fun r k => x0 (ix2 r k)) (fun k q => x2 (ix2 k q))
        (fun q => x3 (ix1 q)) (fun k q => x4 (ix2 k q)) (fun q => x5 (ix1 q)) (fun k j => x6 (ix2 k j))
        (fun j => x7 (ix1 j)) (fun j => x8 (ix2 j (0 : Fin 1))) (x9 (ix1 (0 : Fin 1))) p := by
  unfold OUT H3 C2 H2 C1 H1 Cert.Spec.refOut Cert.Spec.refConv
  exact rfl

/-- An edge into row `p` reads `p` as its target row. -/
theorem gd_of_into (x1 : (⟨S2x1600000, .i32⟩ : BufTy).Contents (Elt Ideal)) (p : Fin 100000) (e : Fin 1700000)
    (he : e ∈ into x1 p) : gd x1 e = p := by
  unfold into at he
  exact clampRow_nrmWord_of_row? _ 100000#32 (dst x1 e) p (Finset.mem_filter.mp he).2

/-! ## From an array of reals to its entries at coordinates -/

/-- A rank-2 array of reals, read at coordinates. -/
theorem real_at2 {n m : Nat} {v : (⟨2, ![n, m]⟩ : Shape).Idx → EReal} (h : AllReal v) :
    ∀ (r : Fin n) (k : Fin m), ∃ a : ℝ, v (ix2 r k) = (a : EReal) := fun r k => h (ix2 r k)

/-- A rank-1 array of reals, read at a coordinate. -/
theorem real_at1 {n : Nat} {v : (⟨1, ![n]⟩ : Shape).Idx → EReal} (h : AllReal v) :
    ∀ q : Fin n, ∃ a : ℝ, v (ix1 q) = (a : EReal) := fun q => h (ix1 q)

/-- A rank-2 array of reals with one column, read at a row. -/
theorem real_at_col {n : Nat} {v : (⟨2, ![n, 1]⟩ : Shape).Idx → EReal} (h : AllReal v) :
    ∀ j : Fin n, ∃ a : ℝ, v (ix2 j (0 : Fin 1)) = (a : EReal) := fun j => h (ix2 j 0)

/-- The per-node factor is a real number. -/
theorem dinv_real (x1 : (⟨S2x1600000, .i32⟩ : BufTy).Contents (Elt Ideal)) : ∀ r : Fin 100000, ∃ a : ℝ, dinv x1 r = (a : EReal) :=
  fun r => dinv_allReal x1 (ix1 r)

/-- **The kernel's formula over a re-ordered edge list equals the reference's formula** at this graph, when every float
    array has real entries: the abstract law of the specification, with the target-row fact and the reality of the
    per-node factor supplied. -/
theorem kerOut_eq_OUT (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal))
    (A' : Fin 100000 → Finset (Fin 1700000)) (s' : Fin 1700000 → Fin 100000) (σ : Fin 1700000 ≃ Fin 1700000)
    (hA : ∀ p e', e' ∈ A' p ↔ σ e' ∈ into x1 p) (hs : ∀ e', s' e' = gs x1 (σ e'))
    (h0 : AllReal x0) (h2 : AllReal x2) (h3 : AllReal x3) (h4 : AllReal x4) (h5 : AllReal x5) (h6 : AllReal x6)
    (h7 : AllReal x7) (h8 : AllReal x8) (h9 : AllReal x9) (p : Fin 100000) :
    Cert.Spec.kerOut A' s' (dinv x1) (fun r k => x0 (ix2 r k)) (fun k q => x2 (ix2 k q))
        (fun q => x3 (ix1 q)) (fun k q => x4 (ix2 k q)) (fun q => x5 (ix1 q)) (fun k j => x6 (ix2 k j))
        (fun j => x7 (ix1 j)) (fun j => x8 (ix2 j (0 : Fin 1))) (x9 (ix1 (0 : Fin 1))) p
      = OUT x0 x1 x2 x3 x4 x5 x6 x7 x8 x9 p := by
  rw [out_eq_refOut]
  exact Cert.Spec.kerOut_eq_refOut (into x1) A' (gs x1) s' (gd x1) (dinv x1) _ _ _ _ _ _ _ _ _ σ hA hs
    (gd_of_into x1) (dinv_real x1) (fun r k => h0 _) (fun k q => h2 _) (fun q => h3 _) (fun k q => h4 _)
    (fun q => h5 _) (fun k j => h6 _) (fun j => h7 _) (fun j => h8 _) (h9 _) p

end Cert.RefSide

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.PreReal.lean ====
/-
  The printed precondition says that every float input has real entries.

  The precondition is the conjunction of nine tests, one per float input: the and-reduction over all axes of the
  entrywise comparison |v| < +∞. The conjunction being 1 makes each test 1, and a test being 1 makes every entry of
  its array a real number.
-/
import proofs.«145530_j23407571763485_2_alg».proof.Pre_finite_inputs
import proofs.«145530_j23407571763485_2_alg».proof.Proof.LibFiniteEntries
import proofs.«145530_j23407571763485_2_alg».proof.Proof.LibRealEntries

noncomputable section

open Idealize.ShloMosaic Idealize.ShloMosaic.ValueIdx
open Cert.Lib Cert.Pre_finite_inputs

namespace Cert.RefSide

/-- Under the printed precondition every float input has real entries (the second input is the integer one). -/
theorem reals_of_pre [Facts]
    (x0 : FVec Ideal S100000x256 .f32) (x1 : IVec S2x1600000 32) (x2 : FVec Ideal S256x64 .f32)
    (x3 : FVec Ideal S64 .f32) (x4 : FVec Ideal S64x32 .f32) (x5 : FVec Ideal S32 .f32)
    (x6 : FVec Ideal S32x16 .f32) (x7 : FVec Ideal S16 .f32) (x8 : FVec Ideal S16x1 .f32)
    (x9 : FVec Ideal S1 .f32)
    (h : fn (F := Ideal) x0 x1 x2 x3 x4 x5 x6 x7 x8 x9 = fun _ => 1#1) :
    AllReal x0 ∧ AllReal x2 ∧ AllReal x3 ∧ AllReal x4 ∧ AllReal x5 ∧ AllReal x6 ∧ AllReal x7 ∧ AllReal x8
      ∧ AllReal x9 := by
  have h0 := congrFun h ix0
  dsimp only [fn, fn_part1, fn_part2, andi] at h0
  -- split the conjunction, last test first
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨fun i => real_of_all_finite x0 _ _ _ h0 i, fun i => real_of_all_finite x2 _ _ _ h2 i,
    fun i => real_of_all_finite x3 _ _ _ h3 i, fun i => real_of_all_finite x4 _ _ _ h4 i,
    fun i => real_of_all_finite x5 _ _ _ h5 i, fun i => real_of_all_finite x6 _ _ _ h6 i,
    fun i => real_of_all_finite x7 _ _ _ h7 i, fun i => real_of_all_finite x8 _ _ _ h8 i,
    fun i => real_of_all_finite x9 _ _ _ h9 i⟩

end Cert.RefSide

end
-- ==== Proof.Bridge.lean ====
/-
  The two idealized programs compute the same result. The kernel program's result is the kernel formula over the
  sorted edges; the reference's is the reference formula over the edges as given. The sort is a permutation of the
  edges, an edge into node `p` reads `p` as its target row, and under the precondition every float entry is a real
  number — as is every normalisation factor, the inverse square root of a count — so the layer law applies.
-/
import proofs.«145530_j23407571763485_2_alg».proof.Proof.KernelValue
import proofs.«145530_j23407571763485_2_alg».proof.Proof.KernelRefNames
import proofs.«145530_j23407571763485_2_alg».proof.Proof.RefValue
import proofs.«145530_j23407571763485_2_alg».proof.Proof.RefSpec
import proofs.«145530_j23407571763485_2_alg».proof.Proof.LayerLaw
import proofs.«145530_j23407571763485_2_alg».proof.Proof.DinvReal
import proofs.«145530_j23407571763485_2_alg».proof.Proof.PreReal
import proofs.«145530_j23407571763485_2_alg».proof.Proof.Gen.Pre_finite_inputs

set_option maxRecDepth 16384

noncomputable section

namespace Cert.KSide

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

open Cert.Lib Cert.Spec

/-- The kernel program's target words, before sorting. -/
def dstKey : IVec S1700000 32 := W5 (F := Ideal) m ρ c (Proc.devRef .tc main_v6)

/-- The sorted target word at `e'` is the target word of the edge the sorting permutation names. -/
theorem dstS_apply (e' : Fin 1700000) :
    dstS m ρ c (ix1 e') = Cert.RefSide.dst (m ((c : Thread nD τ).loc main_arg1)) (sortPerm (dstKey m ρ c) e') := by
  unfold dstS
  rw [t5_main_v32 m ρ c]
  refine (sorted_gather_apply (dstKey m ρ c) (dstKey m ρ c) e').trans ?_
  exact congrFun (dstK (F := Ideal) m ρ c) _

/-- The sorted source word at `e'` is the source word of the edge the sorting permutation names. -/
theorem srcS_apply (e' : Fin 1700000) :
    srcS m ρ c (ix1 e') = Cert.RefSide.src (m ((c : Thread nD τ).loc main_arg1)) (sortPerm (dstKey m ρ c) e') := by
  unfold srcS
  rw [t5_main_v25 m ρ c]
  refine (sorted_gather_apply (dstKey m ρ c) (W5 (F := Ideal) m ρ c (Proc.devRef .tc main_v3)) e').trans ?_
  exact congrFun (srcK (F := Ideal) m ρ c) _

/-- The kernel program's normalisation factors are the reference's. -/
theorem dK_eq : dK m ρ c = Cert.RefSide.dinv (m ((c : Thread nD τ).loc main_arg1)) :=
  funext fun r => congrFun (dinvK (F := Ideal) m ρ c) (ix1 r)

/-- UNDER THE PRECONDITION the kernel program's result at node `p` is the reference's. -/
theorem kernel_eq_ref
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1)
    (p : Fin 100000) :
    aOut m ρ c (ix1 p)
      = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix1 p) := by
  obtain ⟨h0, h2, h3, h4, h5, h6, h7, h8, h9⟩ := Cert.RefSide.reals_of_pre _ _ _ _ _ _ _ _ _ _ hpre
  refine (kernel_value m ρ c p).trans ?_
  refine Eq.trans ?_ ((Cert.RefSide.ref_value _ _ _ _ _ _ _ _ _ _ p).trans (Cert.RefSide.out_eq_refOut _ _ _ _ _ _ _ _ _ _ p)).symm
  rw [dK_eq m ρ c]
  refine kerOut_eq_refOut (Cert.RefSide.into _) (intoK m ρ c) (Cert.RefSide.gs _) (gsK m ρ c) (Cert.RefSide.gd _)
    (Cert.RefSide.dinv _) _ _ _ _ _ _ _ _ _ (sortPerm (dstKey m ρ c)) ?_ ?_ (Cert.RefSide.gd_of_into _)
    (fun r => Cert.RefSide.dinv_allReal _ _) (fun r k => h0 _) (fun k q => h2 _) (fun q => h3 _) (fun k q => h4 _)
    (fun q => h5 _) (fun k j => h6 _) (fun j => h7 _) (fun j => h8 _) (h9 _) p
  · intro p e'
    show e' ∈ Finset.univ.filter _ ↔ sortPerm (dstKey m ρ c) e' ∈ Finset.univ.filter _
    rw [Finset.mem_filter, Finset.mem_filter, dstS_apply m ρ c e']
    exact ⟨fun h => ⟨Finset.mem_univ _, h.2⟩, fun h => ⟨Finset.mem_univ _, h.2⟩⟩
  · intro e'
    show clampRow 100000 _ (nrmWord 100000#32 (srcS m ρ c (ix1 e'))) = _
    rw [srcS_apply m ρ c e']
    rfl

end Cert.KSide

end
-- ==== Proof.lean ====
/-
  The certificate of a two-layer graph convolution with a perceptron head, computed by three pallas regions among host
  gathers, scatter-adds and an argsort, against its jnp reference.

  Both programs add the self-loops to the edge list and compute the node degrees and the normalisation factors
  d = deg^(-1/2) by the same operations. The reference weights every edge's message by d(source) · d(target). The kernel
  program scales each node's transformed features by d(node) inside the region that computes them, sorts the edges by
  target, aggregates the scaled features over the sorted list, and multiplies by d(target) once, in the next region.
  At the idealized instance a change of float format is the identity and a matrix product is a plain sum, so the two
  results differ by (i) the order of the edges in each aggregation — the sort is a permutation (`sortPerm`), and a sum
  does not depend on the order — and (ii) where the factor d(target) stands — inside or outside the sum: equal by
  distributivity, which on the extended reals needs real entries. The precondition makes every float input real;
  degrees are counts, so the factors are real; every intermediate array is then real (`Cert.Spec.kerOut_eq_refOut`).

  The frames of the two kernel programs are the generated ones; the reference's frame is its run with the result
  dropped. The idealization rewrote nothing, so `preserves` is `True`.
-/
import proofs.«145530_j23407571763485_2_alg».proof.Defs
import proofs.«145530_j23407571763485_2_alg».proof.Proof.Gen.Kernel
import proofs.«145530_j23407571763485_2_alg».proof.Proof.Gen.Kernel.Skeleton
import proofs.«145530_j23407571763485_2_alg».proof.Proof.Gen.Kernel.Launch
import proofs.«145530_j23407571763485_2_alg».proof.Proof.Gen.Kernel.Points
import proofs.«145530_j23407571763485_2_alg».proof.Proof.Gen.Kernel.Frame
import proofs.«145530_j23407571763485_2_alg».proof.Proof.Gen.KernelIdeal
import proofs.«145530_j23407571763485_2_alg».proof.Proof.Gen.KernelIdeal.Skeleton
import proofs.«145530_j23407571763485_2_alg».proof.Proof.Gen.KernelIdeal.Launch
import proofs.«145530_j23407571763485_2_alg».proof.Proof.Gen.KernelIdeal.Points
import proofs.«145530_j23407571763485_2_alg».proof.Proof.Gen.KernelIdeal.Frame
import proofs.«145530_j23407571763485_2_alg».proof.Proof.Gen.ReferenceIdeal
import proofs.«145530_j23407571763485_2_alg».proof.Proof.Gen.Pre_finite_inputs
import proofs.«145530_j23407571763485_2_alg».proof.Proof.RefRun
import proofs.«145530_j23407571763485_2_alg».proof.Proof.RefRead
import proofs.«145530_j23407571763485_2_alg».proof.Proof.KernelRun
import proofs.«145530_j23407571763485_2_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result vector: the kernel
    program's run names its result, the reference's run names its own, and node by node the two are one number. -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v62),
    Cert.KernelIdeal.KRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  funext i
  obtain ⟨p, rfl⟩ : ∃ p : Fin 100000, i = ix1 p := ⟨i 0, eq_ix1 i⟩
  exact (Cert.KSide.kernel_eq_ref m ρ c (hpre c) p).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
